-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S3x3x256x256 : Shape := ⟨4, ![3, 3, 256, 256]⟩
abbrev S256 : Shape := ⟨1, ![256]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S3x3x256x256 1) : IVec S_ 1 :=
  let main_c_5 : IVec S_ 1 := constantI S_ 1 1#1
  let main_v17 : IVec S_ 1 := (fun x v => Host.reduce IntOp.andi x v reducesTo_S3x3x256x256_S_d0_1_2_3 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x32x32 .f32) (main_arg1 : FVec F S3x3x256x256 .f32) (main_arg2 : FVec F S256 .f32) (main_arg3 : FVec F S3x3x256x256 .f32) (main_arg4 : FVec F S256 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S3x3x256x256 .f32 := Host.absf main_arg1
  let main_cst_0 : FVec F S_ .f32 := constant S_ .f32 0x7F800000#32
  let main_v5 : FVec F S3x3x256x256 .f32 := broadcastInDim S3x3x256x256 ![] bcast_S_S3x3x256x256 main_cst_0
  let main_v6 : IVec S3x3x256x256 1 := cmpf .olt main_v4 main_v5
  let main_c_1 : IVec S_ 1 := constantI S_ 1 1#1
  let main_v7 : IVec S_ 1 := (fun x v => Host.reduce IntOp.andi x v reducesTo_S3x3x256x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x3x256x256 .f32 := Host.absf main_arg3
  let main_cst_4 : FVec F S_ .f32 := constant S_ .f32 0x7F800000#32
  let main_v15 : FVec F S3x3x256x256 .f32 := broadcastInDim S3x3x256x256 ![] bcast_S_S3x3x256x256 main_cst_4
  let main_v16 : IVec S3x3x256x256 1 := cmpf .olt main_v14 main_v15
  fn_part1 (F := F) main_arg4 main_v13 main_v16
-- ==== Kernel.lean ====
abbrev S32x256x32x32 : Shape := ⟨4, ![32, 256, 32, 32]⟩
abbrev S3x3x256x256 : Shape := ⟨4, ![3, 3, 256, 256]⟩
abbrev S256 : Shape := ⟨1, ![256]⟩
abbrev S32x256x1024 : Shape := ⟨3, ![32, 256, 1024]⟩
abbrev S3x256x3x256 : Shape := ⟨4, ![3, 256, 3, 256]⟩
abbrev S768x768 : Shape := ⟨2, ![768, 768]⟩
abbrev S256x1 : Shape := ⟨2, ![256, 1]⟩
abbrev S1x256x1024 : Shape := ⟨3, ![1, 256, 1024]⟩
abbrev S1x1024 : Shape := ⟨2, ![1, 1024]⟩
abbrev S256x1024 : Shape := ⟨2, ![256, 1024]⟩
abbrev S768x1024 : Shape := ⟨2, ![768, 1024]⟩

abbrev nBuf : Space → Nat
  | .hbm => 16
  | .vmem => 8
  | .smem => 0
  | _ => 0

abbrev bufTy : (tb : Table) → Fin (tcTables nBuf tb) → BufTy
  | .hbm, ⟨0, _⟩ => ⟨S32x256x32x32, .f32⟩
  | .hbm, ⟨1, _⟩ => ⟨S3x3x256x256, .f32⟩
  | .hbm, ⟨2, _⟩ => ⟨S256, .f32⟩
  | .hbm, ⟨3, _⟩ => ⟨S3x3x256x256, .f32⟩
  | .hbm, ⟨4, _⟩ => ⟨S256, .f32⟩
  | .hbm, ⟨5, _⟩ => ⟨S32x256x1024, .f32⟩
  | .hbm, ⟨6, _⟩ => ⟨S3x256x3x256, .f32⟩
  | .hbm, ⟨7, _⟩ => ⟨S768x768, .f32⟩
  | .hbm, ⟨8, _⟩ => ⟨S768x768, .bf16⟩
  | .hbm, ⟨9, _⟩ => ⟨S3x256x3x256, .f32⟩
  | .hbm, ⟨10, _⟩ => ⟨S768x768, .f32⟩
  | .hbm, ⟨11, _⟩ => ⟨S768x768, .bf16⟩
  | .hbm, ⟨12, _⟩ => ⟨S256x1, .f32⟩
  | .hbm, ⟨13, _⟩ => ⟨S256x1, .f32⟩
  | .hbm, ⟨14, _⟩ => ⟨S32x256x1024, .f32⟩
  | .hbm, ⟨15, _⟩ => ⟨S32x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S768x768, .bf16⟩
  | .local _ .vmem, ⟨3, _⟩ => ⟨S256x1, .f32⟩
  | .local _ .vmem, ⟨4, _⟩ => ⟨S768x768, .bf16⟩
  | .local _ .vmem, ⟨5, _⟩ => ⟨S256x1, .f32⟩
  | .local _ .vmem, ⟨6, _⟩ => ⟨S1x256x1024, .f32⟩
  | .local _ .vmem, ⟨7, _⟩ => ⟨S1x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x32x32_S32x256x1024 : S32x256x32x32.ShapeCasts S32x256x1024
  transposes_S3x3x256x256_S3x256x3x256_1_3_0_2 : S3x3x256x256.Transposes [1, 3, 0, 2] S3x256x3x256
  shapeCasts_S3x256x3x256_S768x768 : S3x256x3x256.ShapeCasts S768x768
  bitsLt_bf16_f32 : FTy.bits .bf16 < FTy.bits .f32
  shapeCasts_S256_S256x1 : S256.ShapeCasts S256x1
  iota_S1x1024_d1_w32 : S1x1024.Iotas .tc 32 [1]
  natLt_1_32 : 1 < 32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  rotates_S256x1024_d1 : S256x1024.Rotates 1 none
  broadcasts_S1x1024_S256x1024 : S1x1024.Broadcasts S256x1024
  concatenates_S256x1024_S256x1024_S256x1024_S768x1024_d0 : Shape.Concatenates [S256x1024, S256x1024, S256x1024] S768x1024 0
  slices_S768x1024_o256_0_S256x1024 : S768x1024.Slices ![256, 0] S256x1024
  slices_S768x1024_o0_0_S256x1024 : S768x1024.Slices ![0, 0] S256x1024
  slices_S768x1024_o512_0_S256x1024 : S768x1024.Slices ![512, 0] S256x1024
  broadcasts_S256x1_S256x1024 : S256x1.Broadcasts S256x1024
  shapeCasts_S256x1024_S1x256x1024 : S256x1024.ShapeCasts S1x256x1024
  shapeCasts_S32x256x1024_S32x256x32x32 : S32x256x1024.ShapeCasts S32x256x32x32
  dot_S768x768_S768x1024_S768x1024_1_0_0_1_n_n_wf : DotDims.WF S768x768 S768x1024 S768x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S32x256x1024.size a
  hwx0_5 : ∀ i : grid0.Coords, EltTy.bits .f32 = 32 ∨ (Rect.block (s := S32x256x1024) S1x256x1024.size (cc0_transform_5 i) (hinb0_5 i)).WholeWords (EltTy.packing .f32)

variable [Facts₀]

def dot_S768x768_S768x1024_S768x1024_1_0_0_1_n_n : DotDims S768x768 S768x1024 S768x1024 where
  lhsContracting := [1]
  rhsContracting := [0]
  lhsNonContracting := [0]
  rhsNonContracting := [1]
  lhsBatch := []
  rhsBatch := []
  wf := dot_S768x768_S768x1024_S768x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S3x3x256x256 : Shape := ⟨4, ![3, 3, 256, 256]⟩
abbrev S256 : Shape := ⟨1, ![256]⟩
abbrev S32x256x1024 : Shape := ⟨3, ![32, 256, 1024]⟩
abbrev S2304x256 : Shape := ⟨2, ![2304, 256]⟩
abbrev S256x2304 : Shape := ⟨2, ![256, 2304]⟩
abbrev S256x1 : Shape := ⟨2, ![256, 1]⟩
abbrev S1x256x1024 : Shape := ⟨3, ![1, 256, 1024]⟩
abbrev S256x1024 : Shape := ⟨2, ![256, 1024]⟩
abbrev S2304x1024 : Shape := ⟨2, ![2304, 1024]⟩

abbrev nBuf : Space → Nat
  | .hbm => 14
  | .vmem => 8
  | .smem => 0
  | _ => 0

abbrev bufTy : (tb : Table) → Fin (tcTables nBuf tb) → BufTy
  | .hbm, ⟨0, _⟩ => ⟨S32x256x32x32, .f32⟩
  | .hbm, ⟨1, _⟩ => ⟨S3x3x256x256, .f32⟩
  | .hbm, ⟨2, _⟩ => ⟨S256, .f32⟩
  | .hbm, ⟨3, _⟩ => ⟨S3x3x256x256, .f32⟩
  | .hbm, ⟨4, _⟩ => ⟨S256, .f32⟩
  | .hbm, ⟨5, _⟩ => ⟨S32x256x1024, .f32⟩
  | .hbm, ⟨6, _⟩ => ⟨S2304x256, .f32⟩
  | .hbm, ⟨7, _⟩ => ⟨S256x2304, .f32⟩
  | .hbm, ⟨8, _⟩ => ⟨S2304x256, .f32⟩
  | .hbm, ⟨9, _⟩ => ⟨S256x2304, .f32⟩
  | .hbm, ⟨10, _⟩ => ⟨S256x1, .f32⟩
  | .hbm, ⟨11, _⟩ => ⟨S256x1, .f32⟩
  | .hbm, ⟨12, _⟩ => ⟨S32x256x1024, .f32⟩
  | .hbm, ⟨13, _⟩ => ⟨S32x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S256x2304, .f32⟩
  | .local _ .vmem, ⟨3, _⟩ => ⟨S256x1, .f32⟩
  | .local _ .vmem, ⟨4, _⟩ => ⟨S256x2304, .f32⟩
  | .local _ .vmem, ⟨5, _⟩ => ⟨S256x1, .f32⟩
  | .local _ .vmem, ⟨6, _⟩ => ⟨S1x256x1024, .f32⟩
  | .local _ .vmem, ⟨7, _⟩ => ⟨S1x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x32x32_S32x256x1024 : S32x256x32x32.ShapeCasts S32x256x1024
  shapeCasts_S3x3x256x256_S2304x256 : S3x3x256x256.ShapeCasts S2304x256
  transposes_S2304x256_S256x2304_1_0 : S2304x256.Transposes [1, 0] S256x2304
  shapeCasts_S256_S256x1 : S256.ShapeCasts S256x1
  iota_S256x1024_d1_w32 : S256x1024.Iotas .tc 32 [1]
  natLt_1_32 : 1 < 32
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  rotates_S256x1024_d1 : S256x1024.Rotates 1 none
  concatenates_S256x1024_S256x1024_S256x1024_S256x1024_S256x1024_S256x1024_S256x1024_S256x1024_S256x1024_S2304x1024_d0 : Shape.Concatenates [S256x1024, S256x1024, S256x1024, S256x1024, S256x1024, S256x1024, S256x1024, S256x1024, S256x1024] S2304x1024 0
  broadcasts_S256x1_S256x1024 : S256x1.Broadcasts S256x1024
  shapeCasts_S256x1024_S1x256x1024 : S256x1024.ShapeCasts S1x256x1024
  shapeCasts_S32x256x1024_S32x256x32x32 : S32x256x1024.ShapeCasts S32x256x32x32
  dot_S256x2304_S2304x1024_S256x1024_1_0_0_1_n_n_wf : DotDims.WF S256x2304 S2304x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2304.size a ≤ S256x2304.size a
  hwx0_1 : ∀ i : grid0.Coords, EltTy.bits .f32 = 32 ∨ (Rect.block (s := S256x2304) S256x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S256x2304.size a
  hwx0_3 : ∀ i : grid0.Coords, EltTy.bits .f32 = 32 ∨ (Rect.block (s := S256x2304) S256x2304.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S32x256x1024.size a
  hwx0_5 : ∀ i : grid0.Coords, EltTy.bits .f32 = 32 ∨ (Rect.block (s := S32x256x1024) S1x256x1024.size (cc0_transform_5 i) (hinb0_5 i)).WholeWords (EltTy.packing .f32)

variable [Facts₀]

def dot_S256x2304_S2304x1024_S256x1024_1_0_0_1_n_n : DotDims S256x2304 S2304x1024 S256x1024 where
  lhsContracting := [1]
  rhsContracting := [0]
  lhsNonContracting := [0]
  rhsNonContracting := [1]
  lhsBatch := []
  rhsBatch := []
  wf := dot_S256x2304_S2304x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The residual block relu(conv2(relu(conv1 x + b1)) + b2 + x) on one 32x32 image of 256 channels, the image
  laid out row-major on 1024 positions (position p is row p / 32, column p % 32), written twice:

  * `blockK`: each 3x3 convolution FACTORED BY KERNEL COLUMN.  The three row-shifted copies of the image
    (shift by one image row up, none, one down; the rows that wrap around cleared) are stacked to 768 rows, ONE
    product with a 768 x 768 weight matrix gives the three column groups at once, and the left and right groups are
    shifted by one position and cleared at the image's first / last column AFTER the product.
  * `blockR`: each convolution as ONE product of a 256 x 2304 weight matrix with the nine shifted, masked copies of
    the image stacked to 2304 rows (tap (kh, kw) at rows (3 kh + kw) 256 …).

  A shift is a ROTATION of the 1024 positions (`rot s p`: the position s places back, around the end); every
  position that wraps around is one a mask clears.  `packK` / `packR` lay a weight array W kh kw ci co out as the two
  matrices.  That the two blocks are one function is `ConvLaw.lean`.
-/
import Idealize.ShloMosaic.PureOps.Ideal
import Idealize.ShloMosaic.Lib.ValueIdx

noncomputable section

namespace Cert.ResBlock

open Idealize.ShloMosaic Idealize.ShloMosaic.ValueIdx

/-- One image: channel, position. -/
abbrev Img := Fin 256 → Fin 1024 → EReal
/-- A 3x3 weight array: kernel row, kernel column, input channel, output channel. -/
abbrev Wt := Fin 3 → Fin 3 → Fin 256 → Fin 256 → EReal

/-- The position `s` places back, around the end. -/
def rot (s : Nat) (p : Fin 1024) : Fin 1024 := ⟨(p.val + 1024 - s % 1024) % 1024, Nat.mod_lt _ (by decide)⟩

/-- A 0/1 mask value. -/
def ind (c : Prop) [Decidable c] : EReal := if c then 1 else 0

/-! ## Factored by kernel column -/

/-- The three row-shifted copies of the image, stacked: rows 0…255 the image one row up (cleared on the image's
    first row), rows 256…511 the image, rows 512…767 the image one row down (cleared on its last row). -/
def stackK (X : Img) (k : Fin 768) (p : Fin 1024) : EReal :=
  if k.val / 256 = 0 then X ⟨k.val % 256, Nat.mod_lt _ (by decide)⟩ (rot 32 p) * ind (1 ≤ p.val / 32)
  else if k.val / 256 = 1 then X ⟨k.val % 256, Nat.mod_lt _ (by decide)⟩ p
  else X ⟨k.val % 256, Nat.mod_lt _ (by decide)⟩ (rot 992 p) * ind (p.val / 32 ≤ 30)

/-- The one product: row `r` of the 768 x 768 matrix against the stack. -/
def prodK (A : Fin 768 → Fin 768 → EReal) (X : Img) (r : Fin 768) (p : Fin 1024) : EReal :=
  ∑ k : Fin 768, A r k * stackK X k p

/-- The convolution: the middle column group, plus the left group one position on (cleared on the first column),
    plus the right group one position back (cleared on the last column), plus the bias. -/
def convK (A : Fin 768 → Fin 768 → EReal) (B : Fin 256 → EReal) (X : Img) (co : Fin 256) (p : Fin 1024) : EReal :=
  prodK A X ⟨256 + co.val, by omega⟩ p
    + prodK A X ⟨co.val, by omega⟩ (rot 1 p) * ind (1 ≤ p.val % 32)
    + prodK A X ⟨512 + co.val, by omega⟩ (rot 1023 p) * ind (p.val % 32 ≤ 30)
    + B co

def blockK (A1 : Fin 768 → Fin 768 → EReal) (B1 : Fin 256 → EReal) (A2 : Fin 768 → Fin 768 → EReal) (B2 : Fin 256 → EReal)
    (X : Img) (co : Fin 256) (p : Fin 1024) : EReal :=
  max (convK A2 B2 (fun c q => max (convK A1 B1 X c q) 0) co p + X co p) 0

/-- The weight array as the 768 x 768 matrix: row kw·256 + co, column kh·256 + ci. -/
def packK (W : Wt) (r k : Fin 768) : EReal :=
  W ⟨k.val / 256, by omega⟩ ⟨r.val / 256, by omega⟩ ⟨k.val % 256, Nat.mod_lt _ (by decide)⟩ ⟨r.val % 256, Nat.mod_lt _ (by decide)⟩

/-! ## Nine taps in one product -/

/-- Tap (kh, kw) reads inside the image at position p. -/
def ok (kh kw : Nat) (p : Fin 1024) : Prop :=
  (1 ≤ p.val / 32 + kh ∧ p.val / 32 + kh ≤ 32) ∧ (1 ≤ p.val % 32 + kw ∧ p.val % 32 + kw ≤ 32)

instance (kh kw : Nat) (p : Fin 1024) : Decidable (ok kh kw p) := by unfold ok; infer_instance

/-- The nine shifted, masked copies of the image, stacked: tap t = 3 kh + kw at rows t·256 …; tap 4 is the image. -/
def stackR (X : Img) (k : Fin 2304) (p : Fin 1024) : EReal :=
  if k.val / 256 = 4 then X ⟨k.val % 256, Nat.mod_lt _ (by decide)⟩ p
  else X ⟨k.val % 256, Nat.mod_lt _ (by decide)⟩ (rot (1057 - 32 * (k.val / 768) - (k.val / 256) % 3) p)
        * ind (ok (k.val / 768) ((k.val / 256) % 3) p)

def prodR (A : Fin 256 → Fin 2304 → EReal) (X : Img) (co : Fin 256) (p : Fin 1024) : EReal :=
  ∑ k : Fin 2304, A co k * stackR X k p

def convR (A : Fin 256 → Fin 2304 → EReal) (B : Fin 256 → EReal) (X : Img) (co : Fin 256) (p : Fin 1024) : EReal :=
  prodR A X co p + B co

def blockR (A1 : Fin 256 → Fin 2304 → EReal) (B1 : Fin 256 → EReal) (A2 : Fin 256 → Fin 2304 → EReal) (B2 : Fin 256 → EReal)
    (X : Img) (co : Fin 256) (p : Fin 1024) : EReal :=
  max (convR A2 B2 (fun c q => max (convR A1 B1 X c q) 0) co p + X co p) 0

/-- The weight array as the 256 x 2304 matrix: row co, column (3 kh + kw)·256 + ci. -/
def packR (W : Wt) (co : Fin 256) (k : Fin 2304) : EReal :=
  W ⟨k.val / 768, by omega⟩ ⟨(k.val / 256) % 3, Nat.mod_lt _ (by decide)⟩ ⟨k.val % 256, Nat.mod_lt _ (by decide)⟩ co

/-! ## The whole arrays -/

/-- Image `b` of the batch [32, 256, 32, 32], positions row-major. -/
def imgOf (x : (⟨4, ![32, 256, 32, 32]⟩ : Shape).Idx → EReal) (b : Fin 32) : Img :=
  fun c q => x (ix4 b c ⟨q.val / 32, by omega⟩ ⟨q.val % 32, Nat.mod_lt _ (by decide)⟩)

def wtOf (w : (⟨4, ![3, 3, 256, 256]⟩ : Shape).Idx → EReal) : Wt := fun kh kw ci co => w (ix4 kh kw ci co)

def biasOf (b : (⟨1, ![256]⟩ : Shape).Idx → EReal) : Fin 256 → EReal := fun c => b (ix1 c)

/-- The position of (row, column). -/
def posOf (h w : Fin 32) : Fin 1024 := ⟨32 * h.val + w.val, by omega⟩

def outK (x : (⟨4, ![32, 256, 32, 32]⟩ : Shape).Idx → EReal) (w1 : (⟨4, ![3, 3, 256, 256]⟩ : Shape).Idx → EReal)
    (b1 : (⟨1, ![256]⟩ : Shape).Idx → EReal) (w2 : (⟨4, ![3, 3, 256, 256]⟩ : Shape).Idx → EReal)
    (b2 : (⟨1, ![256]⟩ : Shape).Idx → EReal) : (⟨4, ![32, 256, 32, 32]⟩ : Shape).Idx → EReal :=
  fun i => blockK (packK (wtOf w1)) (biasOf b1) (packK (wtOf w2)) (biasOf b2) (imgOf x (i 0)) (i 1) (posOf (i 2) (i 3))

def outR (x : (⟨4, ![32, 256, 32, 32]⟩ : Shape).Idx → EReal) (w1 : (⟨4, ![3, 3, 256, 256]⟩ : Shape).Idx → EReal)
    (b1 : (⟨1, ![256]⟩ : Shape).Idx → EReal) (w2 : (⟨4, ![3, 3, 256, 256]⟩ : Shape).Idx → EReal)
    (b2 : (⟨1, ![256]⟩ : Shape).Idx → EReal) : (⟨4, ![32, 256, 32, 32]⟩ : Shape).Idx → EReal :=
  fun i => blockR (packR (wtOf w1)) (biasOf b1) (packR (wtOf w2)) (biasOf b2) (imgOf x (i 0)) (i 1) (posOf (i 2) (i 3))

end Cert.ResBlock

end
-- ==== Proof.HostForms.lean ====
/-
  The layout operations around the two kernels, read at an index by coordinates: the batch [32, 256, 32, 32]
  flattened to [32, 256, 1024] (position 32 h + w) and back, a bias vector [256] stood up as a column [256, 1],
  and the 3 x 3 weight array [3, 3, 256, 256] (kernel row, kernel column, input channel, output channel) laid out
  as the 768 x 768 matrix with row kw·256 + co and column kh·256 + ci (a transpose to [3, 256, 3, 256] then a
  reshape), and as the 256 x 2304 matrix with row co and column (3 kh + kw)·256 + ci (a reshape to [2304, 256]
  then a transpose).
-/
import Idealize.ShloMosaic.Lib.Pipeline.Value
import Idealize.ShloMosaic.Lib.ValueIdx

namespace Cert.ResBlock.Forms

open Idealize.ShloMosaic Idealize.ShloMosaic.ValueIdx

variable {α : Type}

/-- The flattened batch at (b, c, q) is the batch at (b, c, q / 32, q % 32). -/
theorem flat_apply (x : (⟨4, ![32, 256, 32, 32]⟩ : Shape).Idx → α)
    (h : (⟨4, ![32, 256, 32, 32]⟩ : Shape).ShapeCasts ⟨3, ![32, 256, 1024]⟩) (b : Fin 32) (c : Fin 256) (q : Fin 1024) :
    shapeCast (⟨3, ![32, 256, 1024]⟩ : Shape) x h (ix3 b c q)
      = x (ix4 b c (⟨q.val / 32, by omega⟩ : Fin 32) (⟨q.val % 32, Nat.mod_lt _ (by decide)⟩ : Fin 32)) := by
  refine shapeCast_apply x h _ _ ?_
  rw [Shape.rowMajor_val_four, Shape.rowMajor_val_three]
  show ((b.val * 256 + c.val) * 32 + q.val / 32) * 32 + q.val % 32 = (b.val * 256 + c.val) * 1024 + q.val
  omega

/-- The unflattened result at (b, c, h, w) is the flat array at (b, c, 32 h + w). -/
theorem unflat_apply (y : (⟨3, ![32, 256, 1024]⟩ : Shape).Idx → α)
    (h : (⟨3, ![32, 256, 1024]⟩ : Shape).ShapeCasts ⟨4, ![32, 256, 32, 32]⟩) (b : Fin 32) (c : Fin 256) (r w : Fin 32) :
    shapeCast (⟨4, ![32, 256, 32, 32]⟩ : Shape) y h (ix4 b c r w) = y (ix3 b c (⟨32 * r.val + w.val, by omega⟩ : Fin 1024)) := by
  refine shapeCast_apply y h _ _ ?_
  rw [Shape.rowMajor_val_four, Shape.rowMajor_val_three]
  show (b.val * 256 + c.val) * 1024 + (32 * r.val + w.val) = ((b.val * 256 + c.val) * 32 + r.val) * 32 + w.val
  omega

/-- The bias column at (c, 0) is the bias at c. -/
theorem column_apply (v : (⟨1, ![256]⟩ : Shape).Idx → α) (h : (⟨1, ![256]⟩ : Shape).ShapeCasts ⟨2, ![256, 1]⟩) (c : Fin 256) :
    shapeCast (⟨2, ![256, 1]⟩ : Shape) v h (ix2 c (0 : Fin 1)) = v (ix1 c) := by
  refine shapeCast_apply v h _ _ ?_
  rw [Shape.rowMajor_val_one, Shape.rowMajor_val_two]
  show c.val = c.val * 1 + 0
  omega

/-- The 768 x 768 layout at (r, k) is the weight at (k / 256, r / 256, k % 256, r % 256). -/
theorem packed768_apply (w : (⟨4, ![3, 3, 256, 256]⟩ : Shape).Idx → α)
    (ht : (⟨4, ![3, 3, 256, 256]⟩ : Shape).Transposes [1, 3, 0, 2] ⟨4, ![3, 256, 3, 256]⟩)
    (hs : (⟨4, ![3, 256, 3, 256]⟩ : Shape).ShapeCasts ⟨2, ![768, 768]⟩) (r k : Fin 768) :
    shapeCast (⟨2, ![768, 768]⟩ : Shape) (transpose (⟨4, ![3, 256, 3, 256]⟩ : Shape) [1, 3, 0, 2] w ht) hs (ix2 r k)
      = w (ix4 (⟨k.val / 256, by omega⟩ : Fin 3) (⟨r.val / 256, by omega⟩ : Fin 3)
            (⟨k.val % 256, Nat.mod_lt _ (by decide)⟩ : Fin 256) (⟨r.val % 256, Nat.mod_lt _ (by decide)⟩ : Fin 256)) := by
  rw [shapeCast_apply _ hs (ix2 r k)
    (ix4 (⟨r.val / 256, by omega⟩ : Fin 3) (⟨r.val % 256, Nat.mod_lt _ (by decide)⟩ : Fin 256)
      (⟨k.val / 256, by omega⟩ : Fin 3) (⟨k.val % 256, Nat.mod_lt _ (by decide)⟩ : Fin 256)) (by
    rw [Shape.rowMajor_val_four, Shape.rowMajor_val_two]
    show ((r.val / 256 * 256 + r.val % 256) * 3 + k.val / 256) * 256 + k.val % 256 = r.val * 768 + k.val
    omega)]
  refine transpose_apply _ w ht _ _ fun b => ?_
  match b with
  | ⟨0, _⟩ => rfl
  | ⟨1, _⟩ => rfl
  | ⟨2, _⟩ => rfl
  | ⟨3, _⟩ => rfl

/-- The 256 x 2304 layout at (co, k) is the weight at (k / 768, (k / 256) % 3, k % 256, co). -/
theorem packed2304_apply (w : (⟨4, ![3, 3, 256, 256]⟩ : Shape).Idx → α)
    (hs : (⟨4, ![3, 3, 256, 256]⟩ : Shape).ShapeCasts ⟨2, ![2304, 256]⟩)
    (ht : (⟨2, ![2304, 256]⟩ : Shape).Transposes [1, 0] ⟨2, ![256, 2304]⟩) (co : Fin 256) (k : Fin 2304) :
    transpose (⟨2, ![256, 2304]⟩ : Shape) [1, 0] (shapeCast (⟨2, ![2304, 256]⟩ : Shape) w hs) ht (ix2 co k)
      = w (ix4 (⟨k.val / 768, by omega⟩ : Fin 3) (⟨(k.val / 256) % 3, Nat.mod_lt _ (by decide)⟩ : Fin 3)
            (⟨k.val % 256, Nat.mod_lt _ (by decide)⟩ : Fin 256) co) := by
  rw [transpose_apply _ _ ht (ix2 co k) (ix2 k co) (fun b => by
    match b with
    | ⟨0, _⟩ => rfl
    | ⟨1, _⟩ => rfl)]
  refine shapeCast_apply w hs _ _ ?_
  rw [Shape.rowMajor_val_four, Shape.rowMajor_val_two]
  show ((k.val / 768 * 3 + k.val / 256 % 3) * 256 + k.val % 256) * 256 + co.val = k.val * 256 + co.val
  omega

end Cert.ResBlock.Forms
-- ==== Proof.KWhole.lean ====
/-
  The idealized kernel's program around its body: the host lines before the region lay the weights out as the
  768 x 768 matrices (a transpose and a reshape; the narrowing to bf16 is the identity on extended reals), stand the
  biases up as columns and flatten the batch to [32, 256, 1024]; grid point t reads image t whole and writes result
  block t; the host line after the region unflattens the result.  Given what the body leaves in a result block as a
  function of its input blocks (BodyLaw, proved in the body's module), the program's result is Spec's outK of the
  argument arrays.
-/
import proofs.«157068_g2000402456168593_pallasbulk_172_2_alg».proof.Proof.Gen.KernelIdeal.Frame
import proofs.«157068_g2000402456168593_pallasbulk_172_2_alg».proof.Proof.Spec
import proofs.«157068_g2000402456168593_pallasbulk_172_2_alg».proof.Proof.HostForms
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a grid point writes back -/

/-- The result array [32, 256, 1024] as one function of the arrays the region finds: entry (b, co, p) is the residual
    block of image b (the rows (b, ·, ·) of the flattened batch) under the two weight matrices and bias columns. -/
def G (c : Dev nD) : S32x256x1024.Idx → EReal := fun i =>
  Cert.ResBlock.blockK (fun r k => (V m c main_v3 : S768x768.Idx → EReal) (ix2 r k)) (fun co => (V m c main_v7 : S256x1.Idx → EReal) (ix2 co (0 : Fin 1)))
    (fun r k => (V m c main_v6 : S768x768.Idx → EReal) (ix2 r k)) (fun co => (V m c main_v8 : S256x1.Idx → EReal) (ix2 co (0 : Fin 1)))
    (fun cc q => (V m c main_v0 : S32x256x1024.Idx → EReal) (ix3 (i 0) cc q)) (i 1) (i 2)

/-- The index maps over the grid: the image block and the result block of point t are block t along the batch axis;
    the weights and biases are fetched whole. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The point as a batch index. -/
def img (t : Fin cfg0.N) : Fin 32 := ⟨t.val, lt_of_lt_of_eq t.isLt N_0⟩

/-- Point t's image block at (0, cc, q) is the flattened batch at (t, cc, q). -/
theorem blk0 (c : Dev nD) (t : Fin cfg0.N) (cc : Fin 256) (q : Fin 1024) :
    iblk m c 0 t (ix3 (0 : Fin 1) cc q) = (V m c main_v0 : S32x256x1024.Idx → EReal) (ix3 (img t) cc q) := by
  obtain ⟨e0, e1, e2, -⟩ := idx_facts t
  show (V m c main_v0 : S32x256x1024.Idx → EReal) (((cfg0.win 0).blk t).view.emb (ix3 (0 : Fin 1) cc q)) = _
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * cc.val = cc.val; omega
  | ⟨2, _⟩ => show win0_0.index t (2 : Fin 3) * 1024 + 1 * q.val = q.val; omega

/-- The first weight matrix's block is the whole matrix. -/
theorem blk1 (c : Dev nD) (t : Fin cfg0.N) (r : Fin 768) (k : Fin 768) :
    iblk m c 1 t (ix2 r k) = (V m c main_v3 : S768x768.Idx → EReal) (ix2 r k) := by
  obtain ⟨-, -, -, -, -, -, e0, e1, -⟩ := idx_facts t
  show (V m c main_v3 : S768x768.Idx → EReal) (((cfg0.win 1).blk t).view.emb (ix2 r k)) = _
  refine congrArg _ (funext fun a => Fin.ext ?_)
  match a with
  | ⟨0, _⟩ => show win0_1.index t (0 : Fin 2) * 768 + 1 * r.val = r.val; omega
  | ⟨1, _⟩ => show win0_1.index t (1 : Fin 2) * 768 + 1 * k.val = k.val; omega

/-- The first bias column's block is the whole column. -/
theorem blk2 (c : Dev nD) (t : Fin cfg0.N) (co : Fin 256) :
    iblk m c 2 t (ix2 co (0 : Fin 1)) = (V m c main_v7 : S256x1.Idx → EReal) (ix2 co (0 : Fin 1)) := by
  obtain ⟨-, -, -, -, -, -, -, -, e0, e1, -⟩ := idx_facts t
  show (V m c main_v7 : S256x1.Idx → EReal) (((cfg0.win 2).blk t).view.emb (ix2 co (0 : Fin 1))) = _
  refine congrArg _ (funext fun a => Fin.ext ?_)
  match a with
  | ⟨0, _⟩ => show win0_2.index t (0 : Fin 2) * 256 + 1 * co.val = co.val; omega
  | ⟨1, _⟩ => show win0_2.index t (1 : Fin 2) * 1 + 1 * 0 = 0; omega

/-- The second weight matrix's block is the whole matrix. -/
theorem blk3 (c : Dev nD) (t : Fin cfg0.N) (r : Fin 768) (k : Fin 768) :
    iblk m c 3 t (ix2 r k) = (V m c main_v6 : S768x768.Idx → EReal) (ix2 r k) := by
  obtain ⟨-, -, -, -, -, -, -, -, -, -, e0, e1, -⟩ := idx_facts t
  show (V m c main_v6 : S768x768.Idx → EReal) (((cfg0.win 3).blk t).view.emb (ix2 r k)) = _
  refine congrArg _ (funext fun a => Fin.ext ?_)
  match a with
  | ⟨0, _⟩ => show win0_3.index t (0 : Fin 2) * 768 + 1 * r.val = r.val; omega
  | ⟨1, _⟩ => show win0_3.index t (1 : Fin 2) * 768 + 1 * k.val = k.val; omega

/-- The second bias column's block is the whole column. -/
theorem blk4 (c : Dev nD) (t : Fin cfg0.N) (co : Fin 256) :
    iblk m c 4 t (ix2 co (0 : Fin 1)) = (V m c main_v8 : S256x1.Idx → EReal) (ix2 co (0 : Fin 1)) := by
  obtain ⟨-, -, -, -, -, -, -, -, -, -, -, -, e0, e1⟩ := idx_facts t
  show (V m c main_v8 : S256x1.Idx → EReal) (((cfg0.win 4).blk t).view.emb (ix2 co (0 : Fin 1))) = _
  refine congrArg _ (funext fun a => Fin.ext ?_)
  match a with
  | ⟨0, _⟩ => show win0_4.index t (0 : Fin 2) * 256 + 1 * co.val = co.val; omega
  | ⟨1, _⟩ => show win0_4.index t (1 : Fin 2) * 1 + 1 * 0 = 0; omega

/-- Entry (0, co, p) of point t's result block sits at (t, co, p) of the result array. -/
theorem emb5 (t : Fin cfg0.N) (co : Fin 256) (p : Fin 1024) :
    ((cfg0.win 5).blk t).view.emb (ix3 (0 : Fin 1) co p) = (ix3 (img t) co p : S32x256x1024.Idx) := by
  obtain ⟨-, -, -, e0, e1, e2, -⟩ := idx_facts t
  refine funext fun a => Fin.ext ?_
  match a with
  | ⟨0, _⟩ => show win0_5.index t (0 : Fin 3) * 1 + 1 * 0 = t.val; omega
  | ⟨1, _⟩ => show win0_5.index t (1 : Fin 3) * 256 + 1 * co.val = co.val; omega
  | ⟨2, _⟩ => show win0_5.index t (2 : Fin 3) * 1024 + 1 * p.val = p.val; omega

/-- The body read at an index: what the result block holds after the body is the residual block of the input blocks. -/
def BodyLaw : Prop := ∀ (x0 : Vec Ideal S1x256x1024 .f32) (x1 : Vec Ideal S768x768 .bf16) (x2 : Vec Ideal S256x1 .f32) (x3 : Vec Ideal S768x768 .bf16) (x4 : Vec Ideal S256x1 .f32) (co : Fin 256) (p : Fin 1024),
    out0_5 (F := Ideal) x0 x1 x2 x3 x4 (ix3 (0 : Fin 1) co p)
      = Cert.ResBlock.blockK (fun r k => x1 (ix2 r k)) (fun c => x2 (ix2 c (0 : Fin 1))) (fun r k => x3 (ix2 r k)) (fun c => x4 (ix2 c (0 : Fin 1))) (fun c q => x0 (ix3 (0 : Fin 1) c q)) co p

/-- What point t writes back is block t of G. -/
theorem flushed_eq (hbody : BodyLaw) (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext j
  show out0_5 (iblk m c 0 t) (iblk m c 1 t) (iblk m c 2 t) (iblk m c 3 t) (iblk m c 4 t) j = G m c (((cfg0.win 5).blk t).view.emb j)
  obtain ⟨z, co, p, rfl⟩ : ∃ (z : Fin 1) (co : Fin 256) (p : Fin 1024), j = ix3 z co p := ⟨j 0, j 1, j 2, eq_ix3 j⟩
  obtain rfl : z = 0 := Subsingleton.elim _ _
  rw [hbody, emb5]
  unfold G
  simp only [blk0, blk1, blk2, blk3, blk4]

/-! ## The blocks fill the array -/

theorem mem_blk (t : Fin cfg0.N) (i : S32x256x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v9).slice (win0_5.rect t)).set ↔ _
  rw [View.set_slice_whole, Rect.mem_set_unit]
  exact Iff.rfl

/-- Entry (b, co, p) is in point b's block. -/
theorem cover (i : S32x256x1024.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 1024 := (i 2).isLt
  have hN : (i 0).val < cfg0.N := lt_of_lt_of_eq hi0 N_0.symm
  obtain ⟨-, -, -, e0, e1, e2, -⟩ := idx_facts ⟨(i 0).val, hN⟩
  refine ⟨⟨(i 0).val, hN⟩, flush0_5 _, ?_⟩
  rw [mem_blk]
  intro a
  match a with
  | ⟨0, _⟩ => show win0_5.index ⟨(i 0).val, hN⟩ (0 : Fin 3) * 1 ≤ (i 0).val ∧ (i 0).val < win0_5.index ⟨(i 0).val, hN⟩ (0 : Fin 3) * 1 + 1; simp only at e0; omega
  | ⟨1, _⟩ => show win0_5.index ⟨(i 0).val, hN⟩ (1 : Fin 3) * 256 ≤ (i 1).val ∧ (i 1).val < win0_5.index ⟨(i 0).val, hN⟩ (1 : Fin 3) * 256 + 256; omega
  | ⟨2, _⟩ => show win0_5.index ⟨(i 0).val, hN⟩ (2 : Fin 3) * 1024 ≤ (i 2).val ∧ (i 2).val < win0_5.index ⟨(i 0).val, hN⟩ (2 : Fin 3) * 1024 + 1024; omega

/-- The result array after the region. -/
theorem final (hbody : BodyLaw) (c : Dev nD) : (dats m 0 c).arrAt 5 cfg0.N = G m c :=
  (dats m 0 c).arrAt_eq_of_cover 5 (G m c) (fun t _ => flushed_eq m hbody c t) cover

/-! ## The host operations before the region -/

theorem pre_v0 (c : Dev nD) : (V m c main_v0 : S32x256x1024.Idx → EReal)
    = shapeCast S32x256x1024 (m ((c : Thread nD τ).loc main_arg0)) Facts₀.shapeCasts_S32x256x32x32_S32x256x1024 := by
  show StableHlo.after hostOps0 (fun b => m (c, b)) (Proc.devRef .tc main_v0) = _
  after_results
  rfl

theorem pre_w1 (c : Dev nD) : (V m c main_v3 : S768x768.Idx → EReal)
    = truncf (F := Ideal) .bf16 (shapeCast S768x768 (transpose S3x256x3x256 [1, 3, 0, 2] (m ((c : Thread nD τ).loc main_arg1)) Facts₀.transposes_S3x3x256x256_S3x256x3x256_1_3_0_2) Facts₀.shapeCasts_S3x256x3x256_S768x768) Facts₀.bitsLt_bf16_f32 := by
  show StableHlo.after hostOps0 (fun b => m (c, b)) (Proc.devRef .tc main_v3) = _
  after_results
  rfl

theorem pre_w2 (c : Dev nD) : (V m c main_v6 : S768x768.Idx → EReal)
    = truncf (F := Ideal) .bf16 (shapeCast S768x768 (transpose S3x256x3x256 [1, 3, 0, 2] (m ((c : Thread nD τ).loc main_arg3)) Facts₀.transposes_S3x3x256x256_S3x256x3x256_1_3_0_2) Facts₀.shapeCasts_S3x256x3x256_S768x768) Facts₀.bitsLt_bf16_f32 := by
  show StableHlo.after hostOps0 (fun b => m (c, b)) (Proc.devRef .tc main_v6) = _
  after_results
  rfl

theorem pre_b1 (c : Dev nD) : (V m c main_v7 : S256x1.Idx → EReal)
    = shapeCast S256x1 (m ((c : Thread nD τ).loc main_arg2)) Facts₀.shapeCasts_S256_S256x1 := by
  show StableHlo.after hostOps0 (fun b => m (c, b)) (Proc.devRef .tc main_v7) = _
  after_results
  rfl

theorem pre_b2 (c : Dev nD) : (V m c main_v8 : S256x1.Idx → EReal)
    = shapeCast S256x1 (m ((c : Thread nD τ).loc main_arg4)) Facts₀.shapeCasts_S256_S256x1 := by
  show StableHlo.after hostOps0 (fun b => m (c, b)) (Proc.devRef .tc main_v8) = _
  after_results
  rfl

/-- G in terms of the argument arrays. -/
theorem G_apply (c : Dev nD) (b : Fin 32) (co : Fin 256) (p : Fin 1024) :
    G m c (ix3 b co p) = Cert.ResBlock.blockK
      (Cert.ResBlock.packK (Cert.ResBlock.wtOf (m ((c : Thread nD τ).loc main_arg1)))) (Cert.ResBlock.biasOf (m ((c : Thread nD τ).loc main_arg2)))
      (Cert.ResBlock.packK (Cert.ResBlock.wtOf (m ((c : Thread nD τ).loc main_arg3)))) (Cert.ResBlock.biasOf (m ((c : Thread nD τ).loc main_arg4)))
      (Cert.ResBlock.imgOf (m ((c : Thread nD τ).loc main_arg0)) b) co p := by
  unfold G
  rw [pre_v0, pre_w1, pre_w2, pre_b1, pre_b2]
  have e1 : (fun (r : Fin 768) (k : Fin 768) => truncf (F := Ideal) .bf16 (shapeCast S768x768 (transpose S3x256x3x256 [1, 3, 0, 2] (m ((c : Thread nD τ).loc main_arg1)) Facts₀.transposes_S3x3x256x256_S3x256x3x256_1_3_0_2) Facts₀.shapeCasts_S3x256x3x256_S768x768) Facts₀.bitsLt_bf16_f32 (ix2 r k))
      = Cert.ResBlock.packK (Cert.ResBlock.wtOf (m ((c : Thread nD τ).loc main_arg1))) := by
    funext r k
    exact Cert.ResBlock.Forms.packed768_apply _ _ _ r k
  have e2 : (fun (r : Fin 768) (k : Fin 768) => truncf (F := Ideal) .bf16 (shapeCast S768x768 (transpose S3x256x3x256 [1, 3, 0, 2] (m ((c : Thread nD τ).loc main_arg3)) Facts₀.transposes_S3x3x256x256_S3x256x3x256_1_3_0_2) Facts₀.shapeCasts_S3x256x3x256_S768x768) Facts₀.bitsLt_bf16_f32 (ix2 r k))
      = Cert.ResBlock.packK (Cert.ResBlock.wtOf (m ((c : Thread nD τ).loc main_arg3))) := by
    funext r k
    exact Cert.ResBlock.Forms.packed768_apply _ _ _ r k
  have e3 : (fun co : Fin 256 => shapeCast S256x1 (m ((c : Thread nD τ).loc main_arg2)) Facts₀.shapeCasts_S256_S256x1 (ix2 co (0 : Fin 1)))
      = Cert.ResBlock.biasOf (m ((c : Thread nD τ).loc main_arg2)) := by
    funext co
    exact Cert.ResBlock.Forms.column_apply _ _ co
  have e4 : (fun co : Fin 256 => shapeCast S256x1 (m ((c : Thread nD τ).loc main_arg4)) Facts₀.shapeCasts_S256_S256x1 (ix2 co (0 : Fin 1)))
      = Cert.ResBlock.biasOf (m ((c : Thread nD τ).loc main_arg4)) := by
    funext co
    exact Cert.ResBlock.Forms.column_apply _ _ co
  have e5 : (fun (cc : Fin 256) (q : Fin 1024) => shapeCast S32x256x1024 (m ((c : Thread nD τ).loc main_arg0)) Facts₀.shapeCasts_S32x256x32x32_S32x256x1024 (ix3 b cc q))
      = Cert.ResBlock.imgOf (m ((c : Thread nD τ).loc main_arg0)) b := by
    funext cc q
    exact Cert.ResBlock.Forms.flat_apply _ _ b cc q
  rw [e1, e2, e3, e4]
  exact congrArg (fun X => Cert.ResBlock.blockK _ _ _ _ X co p) e5

/-! ## The host operation after the region, and the run -/

/-- The program's result: the result array unflattened. -/
theorem tail_eq (hbody : BodyLaw) (c : Dev nD) :
    Pipeline.afterTail₀ cfgs (dats m) 0 (V0 m) [hostOps1] c main_v10
      = Cert.ResBlock.outK (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9) = G m c :=
    (Pipeline.withArrays_arr spec0 launch0.win.arr_inj c _ _ 5).trans (final m hbody c)
  funext i
  obtain ⟨b, co, r, w, rfl⟩ : ∃ (b : Fin 32) (co : Fin 256) (r w : Fin 32), i = ix4 b co r w := ⟨i 0, i 1, i 2, i 3, eq_ix4 i⟩
  show shapeCast S32x256x32x32 (Pipeline.withArrays (cfgs 0).spec c (V0 m c) (fun w => (dats m 0 c).arrAt w (cfgs 0).N) (Proc.devRef .tc main_v9)) Facts₀.shapeCasts_S32x256x1024_S32x256x32x32 (ix4 b co r w) = _
  rw [hw, Cert.ResBlock.Forms.unflat_apply, G_apply]
  rfl

/-- Every weakly fair execution ends with the result at the residual block of the arguments, image by image, and the
    arguments unchanged. -/
theorem run (hbody : BodyLaw) : θ_run defs (onTc (τ := τ) (main (F := Ideal))) ⟨m, fun _ => 0, ρ⟩ fun r => ∀ c : Dev nD,
      r.2.mem ((c.tc : Thread nD τ).loc main_v10)
        = Cert.ResBlock.outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v10 (Pipeline.mem_restRefs_of main_v10 (by decide) (by decide))).trans (tail_eq m hbody c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Whole

end
-- ==== Proof.RWhole.lean ====
/-
  The idealized reference's program around its body: the host lines before the region lay the weights out as the
  256 x 2304 matrices (a reshape to [2304, 256] and a transpose), stand the biases up as columns and flatten the
  batch to [32, 256, 1024]; grid point t reads image t whole and writes result block t; the host line after the
  region unflattens the result.  Given what the body leaves in a result block as a function of its input blocks
  (BodyLaw, proved in the body's module), the program's result is Spec's outR of the argument arrays.
-/
import proofs.«157068_g2000402456168593_pallasbulk_172_2_alg».proof.Proof.Gen.ReferenceIdeal.Frame
import proofs.«157068_g2000402456168593_pallasbulk_172_2_alg».proof.Proof.Spec
import proofs.«157068_g2000402456168593_pallasbulk_172_2_alg».proof.Proof.HostForms
import Idealize.ShloMosaic.Lib.Pipeline.Value
import Idealize.ShloMosaic.Lib.ValueIdx
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a grid point writes back -/

/-- The result array [32, 256, 1024] as one function of the arrays the region finds: entry (b, co, p) is the residual
    block of image b (the rows (b, ·, ·) of the flattened batch) under the two weight matrices and bias columns. -/
def G (c : Dev nD) : S32x256x1024.Idx → EReal := fun i =>
  Cert.ResBlock.blockR (fun r k => (V m c main_v2 : S256x2304.Idx → EReal) (ix2 r k)) (fun co => (V m c main_v5 : S256x1.Idx → EReal) (ix2 co (0 : Fin 1)))
    (fun r k => (V m c main_v4 : S256x2304.Idx → EReal) (ix2 r k)) (fun co => (V m c main_v6 : S256x1.Idx → EReal) (ix2 co (0 : Fin 1)))
    (fun cc q => (V m c main_v0 : S32x256x1024.Idx → EReal) (ix3 (i 0) cc q)) (i 1) (i 2)

/-- The index maps over the grid: the image block and the result block of point t are block t along the batch axis;
    the weights and biases are fetched whole. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The point as a batch index. -/
def img (t : Fin cfg0.N) : Fin 32 := ⟨t.val, lt_of_lt_of_eq t.isLt N_0⟩

/-- Point t's image block at (0, cc, q) is the flattened batch at (t, cc, q). -/
theorem blk0 (c : Dev nD) (t : Fin cfg0.N) (cc : Fin 256) (q : Fin 1024) :
    iblk m c 0 t (ix3 (0 : Fin 1) cc q) = (V m c main_v0 : S32x256x1024.Idx → EReal) (ix3 (img t) cc q) := by
  obtain ⟨e0, e1, e2, -⟩ := idx_facts t
  show (V m c main_v0 : S32x256x1024.Idx → EReal) (((cfg0.win 0).blk t).view.emb (ix3 (0 : Fin 1) cc q)) = _
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * cc.val = cc.val; omega
  | ⟨2, _⟩ => show win0_0.index t (2 : Fin 3) * 1024 + 1 * q.val = q.val; omega

/-- The first weight matrix's block is the whole matrix. -/
theorem blk1 (c : Dev nD) (t : Fin cfg0.N) (r : Fin 256) (k : Fin 2304) :
    iblk m c 1 t (ix2 r k) = (V m c main_v2 : S256x2304.Idx → EReal) (ix2 r k) := by
  obtain ⟨-, -, -, -, -, -, e0, e1, -⟩ := idx_facts t
  show (V m c main_v2 : S256x2304.Idx → EReal) (((cfg0.win 1).blk t).view.emb (ix2 r k)) = _
  refine congrArg _ (funext fun a => Fin.ext ?_)
  match a with
  | ⟨0, _⟩ => show win0_1.index t (0 : Fin 2) * 256 + 1 * r.val = r.val; omega
  | ⟨1, _⟩ => show win0_1.index t (1 : Fin 2) * 2304 + 1 * k.val = k.val; omega

/-- The first bias column's block is the whole column. -/
theorem blk2 (c : Dev nD) (t : Fin cfg0.N) (co : Fin 256) :
    iblk m c 2 t (ix2 co (0 : Fin 1)) = (V m c main_v5 : S256x1.Idx → EReal) (ix2 co (0 : Fin 1)) := by
  obtain ⟨-, -, -, -, -, -, -, -, e0, e1, -⟩ := idx_facts t
  show (V m c main_v5 : S256x1.Idx → EReal) (((cfg0.win 2).blk t).view.emb (ix2 co (0 : Fin 1))) = _
  refine congrArg _ (funext fun a => Fin.ext ?_)
  match a with
  | ⟨0, _⟩ => show win0_2.index t (0 : Fin 2) * 256 + 1 * co.val = co.val; omega
  | ⟨1, _⟩ => show win0_2.index t (1 : Fin 2) * 1 + 1 * 0 = 0; omega

/-- The second weight matrix's block is the whole matrix. -/
theorem blk3 (c : Dev nD) (t : Fin cfg0.N) (r : Fin 256) (k : Fin 2304) :
    iblk m c 3 t (ix2 r k) = (V m c main_v4 : S256x2304.Idx → EReal) (ix2 r k) := by
  obtain ⟨-, -, -, -, -, -, -, -, -, -, e0, e1, -⟩ := idx_facts t
  show (V m c main_v4 : S256x2304.Idx → EReal) (((cfg0.win 3).blk t).view.emb (ix2 r k)) = _
  refine congrArg _ (funext fun a => Fin.ext ?_)
  match a with
  | ⟨0, _⟩ => show win0_3.index t (0 : Fin 2) * 256 + 1 * r.val = r.val; omega
  | ⟨1, _⟩ => show win0_3.index t (1 : Fin 2) * 2304 + 1 * k.val = k.val; omega

/-- The second bias column's block is the whole column. -/
theorem blk4 (c : Dev nD) (t : Fin cfg0.N) (co : Fin 256) :
    iblk m c 4 t (ix2 co (0 : Fin 1)) = (V m c main_v6 : S256x1.Idx → EReal) (ix2 co (0 : Fin 1)) := by
  obtain ⟨-, -, -, -, -, -, -, -, -, -, -, -, e0, e1⟩ := idx_facts t
  show (V m c main_v6 : S256x1.Idx → EReal) (((cfg0.win 4).blk t).view.emb (ix2 co (0 : Fin 1))) = _
  refine congrArg _ (funext fun a => Fin.ext ?_)
  match a with
  | ⟨0, _⟩ => show win0_4.index t (0 : Fin 2) * 256 + 1 * co.val = co.val; omega
  | ⟨1, _⟩ => show win0_4.index t (1 : Fin 2) * 1 + 1 * 0 = 0; omega

/-- Entry (0, co, p) of point t's result block sits at (t, co, p) of the result array. -/
theorem emb5 (t : Fin cfg0.N) (co : Fin 256) (p : Fin 1024) :
    ((cfg0.win 5).blk t).view.emb (ix3 (0 : Fin 1) co p) = (ix3 (img t) co p : S32x256x1024.Idx) := by
  obtain ⟨-, -, -, e0, e1, e2, -⟩ := idx_facts t
  refine funext fun a => Fin.ext ?_
  match a with
  | ⟨0, _⟩ => show win0_5.index t (0 : Fin 3) * 1 + 1 * 0 = t.val; omega
  | ⟨1, _⟩ => show win0_5.index t (1 : Fin 3) * 256 + 1 * co.val = co.val; omega
  | ⟨2, _⟩ => show win0_5.index t (2 : Fin 3) * 1024 + 1 * p.val = p.val; omega

/-- The body read at an index: what the result block holds after the body is the residual block of the input blocks. -/
def BodyLaw : Prop := ∀ (x0 : Vec Ideal S1x256x1024 .f32) (x1 : Vec Ideal S256x2304 .f32) (x2 : Vec Ideal S256x1 .f32) (x3 : Vec Ideal S256x2304 .f32) (x4 : Vec Ideal S256x1 .f32) (co : Fin 256) (p : Fin 1024),
    out0_5 (F := Ideal) x0 x1 x2 x3 x4 (ix3 (0 : Fin 1) co p)
      = Cert.ResBlock.blockR (fun r k => x1 (ix2 r k)) (fun c => x2 (ix2 c (0 : Fin 1))) (fun r k => x3 (ix2 r k)) (fun c => x4 (ix2 c (0 : Fin 1))) (fun c q => x0 (ix3 (0 : Fin 1) c q)) co p

/-- What point t writes back is block t of G. -/
theorem flushed_eq (hbody : BodyLaw) (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext j
  show out0_5 (iblk m c 0 t) (iblk m c 1 t) (iblk m c 2 t) (iblk m c 3 t) (iblk m c 4 t) j = G m c (((cfg0.win 5).blk t).view.emb j)
  obtain ⟨z, co, p, rfl⟩ : ∃ (z : Fin 1) (co : Fin 256) (p : Fin 1024), j = ix3 z co p := ⟨j 0, j 1, j 2, eq_ix3 j⟩
  obtain rfl : z = 0 := Subsingleton.elim _ _
  rw [hbody, emb5]
  unfold G
  simp only [blk0, blk1, blk2, blk3, blk4]

/-! ## The blocks fill the array -/

theorem mem_blk (t : Fin cfg0.N) (i : S32x256x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v7).slice (win0_5.rect t)).set ↔ _
  rw [View.set_slice_whole, Rect.mem_set_unit]
  exact Iff.rfl

/-- Entry (b, co, p) is in point b's block. -/
theorem cover (i : S32x256x1024.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 1024 := (i 2).isLt
  have hN : (i 0).val < cfg0.N := lt_of_lt_of_eq hi0 N_0.symm
  obtain ⟨-, -, -, e0, e1, e2, -⟩ := idx_facts ⟨(i 0).val, hN⟩
  refine ⟨⟨(i 0).val, hN⟩, flush0_5 _, ?_⟩
  rw [mem_blk]
  intro a
  match a with
  | ⟨0, _⟩ => show win0_5.index ⟨(i 0).val, hN⟩ (0 : Fin 3) * 1 ≤ (i 0).val ∧ (i 0).val < win0_5.index ⟨(i 0).val, hN⟩ (0 : Fin 3) * 1 + 1; simp only at e0; omega
  | ⟨1, _⟩ => show win0_5.index ⟨(i 0).val, hN⟩ (1 : Fin 3) * 256 ≤ (i 1).val ∧ (i 1).val < win0_5.index ⟨(i 0).val, hN⟩ (1 : Fin 3) * 256 + 256; omega
  | ⟨2, _⟩ => show win0_5.index ⟨(i 0).val, hN⟩ (2 : Fin 3) * 1024 ≤ (i 2).val ∧ (i 2).val < win0_5.index ⟨(i 0).val, hN⟩ (2 : Fin 3) * 1024 + 1024; omega

/-- The result array after the region. -/
theorem final (hbody : BodyLaw) (c : Dev nD) : (dats m 0 c).arrAt 5 cfg0.N = G m c :=
  (dats m 0 c).arrAt_eq_of_cover 5 (G m c) (fun t _ => flushed_eq m hbody c t) cover

/-! ## The host operations before the region -/

theorem pre_v0 (c : Dev nD) : (V m c main_v0 : S32x256x1024.Idx → EReal)
    = shapeCast S32x256x1024 (m ((c : Thread nD τ).loc main_arg0)) Facts₀.shapeCasts_S32x256x32x32_S32x256x1024 := by
  show StableHlo.after hostOps0 (fun b => m (c, b)) (Proc.devRef .tc main_v0) = _
  after_results
  rfl

theorem pre_w1 (c : Dev nD) : (V m c main_v2 : S256x2304.Idx → EReal)
    = transpose S256x2304 [1, 0] (shapeCast S2304x256 (m ((c : Thread nD τ).loc main_arg1)) Facts₀.shapeCasts_S3x3x256x256_S2304x256) Facts₀.transposes_S2304x256_S256x2304_1_0 := by
  show StableHlo.after hostOps0 (fun b => m (c, b)) (Proc.devRef .tc main_v2) = _
  after_results
  rfl

theorem pre_w2 (c : Dev nD) : (V m c main_v4 : S256x2304.Idx → EReal)
    = transpose S256x2304 [1, 0] (shapeCast S2304x256 (m ((c : Thread nD τ).loc main_arg3)) Facts₀.shapeCasts_S3x3x256x256_S2304x256) Facts₀.transposes_S2304x256_S256x2304_1_0 := by
  show StableHlo.after hostOps0 (fun b => m (c, b)) (Proc.devRef .tc main_v4) = _
  after_results
  rfl

theorem pre_b1 (c : Dev nD) : (V m c main_v5 : S256x1.Idx → EReal)
    = shapeCast S256x1 (m ((c : Thread nD τ).loc main_arg2)) Facts₀.shapeCasts_S256_S256x1 := by
  show StableHlo.after hostOps0 (fun b => m (c, b)) (Proc.devRef .tc main_v5) = _
  after_results
  rfl

theorem pre_b2 (c : Dev nD) : (V m c main_v6 : S256x1.Idx → EReal)
    = shapeCast S256x1 (m ((c : Thread nD τ).loc main_arg4)) Facts₀.shapeCasts_S256_S256x1 := by
  show StableHlo.after hostOps0 (fun b => m (c, b)) (Proc.devRef .tc main_v6) = _
  after_results
  rfl

/-- G in terms of the argument arrays. -/
theorem G_apply (c : Dev nD) (b : Fin 32) (co : Fin 256) (p : Fin 1024) :
    G m c (ix3 b co p) = Cert.ResBlock.blockR
      (Cert.ResBlock.packR (Cert.ResBlock.wtOf (m ((c : Thread nD τ).loc main_arg1)))) (Cert.ResBlock.biasOf (m ((c : Thread nD τ).loc main_arg2)))
      (Cert.ResBlock.packR (Cert.ResBlock.wtOf (m ((c : Thread nD τ).loc main_arg3)))) (Cert.ResBlock.biasOf (m ((c : Thread nD τ).loc main_arg4)))
      (Cert.ResBlock.imgOf (m ((c : Thread nD τ).loc main_arg0)) b) co p := by
  unfold G
  rw [pre_v0, pre_w1, pre_w2, pre_b1, pre_b2]
  have e1 : (fun (r : Fin 256) (k : Fin 2304) => transpose S256x2304 [1, 0] (shapeCast S2304x256 (m ((c : Thread nD τ).loc main_arg1)) Facts₀.shapeCasts_S3x3x256x256_S2304x256) Facts₀.transposes_S2304x256_S256x2304_1_0 (ix2 r k))
      = Cert.ResBlock.packR (Cert.ResBlock.wtOf (m ((c : Thread nD τ).loc main_arg1))) := by
    funext r k
    exact Cert.ResBlock.Forms.packed2304_apply _ _ _ r k
  have e2 : (fun (r : Fin 256) (k : Fin 2304) => transpose S256x2304 [1, 0] (shapeCast S2304x256 (m ((c : Thread nD τ).loc main_arg3)) Facts₀.shapeCasts_S3x3x256x256_S2304x256) Facts₀.transposes_S2304x256_S256x2304_1_0 (ix2 r k))
      = Cert.ResBlock.packR (Cert.ResBlock.wtOf (m ((c : Thread nD τ).loc main_arg3))) := by
    funext r k
    exact Cert.ResBlock.Forms.packed2304_apply _ _ _ r k
  have e3 : (fun co : Fin 256 => shapeCast S256x1 (m ((c : Thread nD τ).loc main_arg2)) Facts₀.shapeCasts_S256_S256x1 (ix2 co (0 : Fin 1)))
      = Cert.ResBlock.biasOf (m ((c : Thread nD τ).loc main_arg2)) := by
    funext co
    exact Cert.ResBlock.Forms.column_apply _ _ co
  have e4 : (fun co : Fin 256 => shapeCast S256x1 (m ((c : Thread nD τ).loc main_arg4)) Facts₀.shapeCasts_S256_S256x1 (ix2 co (0 : Fin 1)))
      = Cert.ResBlock.biasOf (m ((c : Thread nD τ).loc main_arg4)) := by
    funext co
    exact Cert.ResBlock.Forms.column_apply _ _ co
  have e5 : (fun (cc : Fin 256) (q : Fin 1024) => shapeCast S32x256x1024 (m ((c : Thread nD τ).loc main_arg0)) Facts₀.shapeCasts_S32x256x32x32_S32x256x1024 (ix3 b cc q))
      = Cert.ResBlock.imgOf (m ((c : Thread nD τ).loc main_arg0)) b := by
    funext cc q
    exact Cert.ResBlock.Forms.flat_apply _ _ b cc q
  rw [e1, e2, e3, e4]
  exact congrArg (fun X => Cert.ResBlock.blockR _ _ _ _ X co p) e5

/-! ## The host operation after the region, and the run -/

/-- The program's result: the result array unflattened. -/
theorem tail_eq (hbody : BodyLaw) (c : Dev nD) :
    Pipeline.afterTail₀ cfgs (dats m) 0 (V0 m) [hostOps1] c main_v8
      = Cert.ResBlock.outR (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7) = G m c :=
    (Pipeline.withArrays_arr spec0 launch0.win.arr_inj c _ _ 5).trans (final m hbody c)
  funext i
  obtain ⟨b, co, r, w, rfl⟩ : ∃ (b : Fin 32) (co : Fin 256) (r w : Fin 32), i = ix4 b co r w := ⟨i 0, i 1, i 2, i 3, eq_ix4 i⟩
  show shapeCast S32x256x32x32 (Pipeline.withArrays (cfgs 0).spec c (V0 m c) (fun w => (dats m 0 c).arrAt w (cfgs 0).N) (Proc.devRef .tc main_v7)) Facts₀.shapeCasts_S32x256x1024_S32x256x32x32 (ix4 b co r w) = _
  rw [hw, Cert.ResBlock.Forms.unflat_apply, G_apply]
  rfl

/-- Every weakly fair execution ends with the result at the residual block of the arguments, image by image, and the
    arguments unchanged. -/
theorem run (hbody : BodyLaw) : θ_run defs (onTc (τ := τ) (main (F := Ideal))) ⟨m, fun _ => 0, ρ⟩ fun r => ∀ c : Dev nD,
      r.2.mem ((c.tc : Thread nD τ).loc main_v8)
        = Cert.ResBlock.outR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v8 (Pipeline.mem_restRefs_of main_v8 (by decide) (by decide))).trans (tail_eq m hbody c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.ReferenceIdeal.Whole

end
-- ==== Proof.ConvLaw.lean ====
/-
  The two ways of writing the 3x3 convolution are one function.

  Both are brought to a neutral form: for output channel co and position p,

      conv W B X co p = (Σ kw, Σ kh, Σ ci, W kh kw ci co * tap X kh kw ci p) + B co,

  where tap X kh kw ci p is the image value at the position (kh - 1) rows and (kw - 1) columns away from p when
  that position lies inside the image, and 0 otherwise.

  * Nine taps in one product: the 2304 summation rows split as (kh, kw, ci) with row index ci + 256 (kw + 3 kh);
    the weight matrix entry is W kh kw ci co and the stacked image entry is exactly the tap (tap 4, the centre,
    is unmasked, and indeed its mask always holds and its rotation is by a whole turn).
  * Factored by kernel column: the 768 summation rows split as (kh, ci) with row index ci + 256 kh.  The middle
    column group is the column kw = 1 directly.  The left (right) group is evaluated one position back (on) and
    multiplied by the first-column (last-column) mask.  Where that mask is 1 the neighbouring position lies in the
    same image row, so the row mask is unchanged and the two rotations compose to the single rotation of the tap;
    where it is 0 every tap of that kernel column is outside the image, so both sides are 0.

  Only x * 1 = x, x * 0 = 0 and the commutative-monoid laws of + on the extended reals are used; nothing is ever
  distributed, so no finiteness hypothesis is needed.
-/
import proofs.«157068_g2000402456168593_pallasbulk_172_2_alg».proof.Proof.Spec

noncomputable section

namespace Cert.ResBlock

open Idealize.ShloMosaic Idealize.ShloMosaic.ValueIdx

theorem sum_fin_mul {M : Type*} [AddCommMonoid M] {m n N : Nat} (h : m * n = N) (f : Fin N → M) :
    ∑ k : Fin N, f k = ∑ a : Fin m, ∑ b : Fin n, f (Fin.cast h (finProdFinEquiv (a, b))) := by
  subst h
  rw [← finProdFinEquiv.sum_comp, Fintype.sum_prod_type]
  rfl

theorem cast_fpf_val {m n N : Nat} (h : m * n = N) (a : Fin m) (b : Fin n) :
    (Fin.cast h (finProdFinEquiv (a, b))).val = b.val + n * a.val := rfl

theorem rot_val (s : Nat) (p : Fin 1024) : (rot s p).val = (p.val + 1024 - s % 1024) % 1024 := rfl

theorem mask_eq (x y : EReal) (c c' : Prop) [Decidable c] [Decidable c'] (hc : c ↔ c') (hxy : c → x = y) :
    x * ind c = if c' then y else 0 := by
  by_cases h : c
  · rw [ind, if_pos h, mul_one, if_pos (hc.mp h), hxy h]
  · rw [ind, if_neg h, mul_zero, if_neg (fun h' => h (hc.mpr h'))]

theorem packK_at (W : Wt) (kh kw : Fin 3) (ci co : Fin 256) (r k : Fin 768)
    (hr : r.val = co.val + 256 * kw.val) (hk : k.val = ci.val + 256 * kh.val) :
    packK W r k = W kh kw ci co := by
  have h1 : (⟨k.val / 256, by have := k.isLt; omega⟩ : Fin 3) = kh := Fin.ext (by show k.val / 256 = kh.val; omega)
  have h2 : (⟨r.val / 256, by have := r.isLt; omega⟩ : Fin 3) = kw := Fin.ext (by show r.val / 256 = kw.val; omega)
  have h3 : (⟨k.val % 256, Nat.mod_lt _ (by decide)⟩ : Fin 256) = ci := Fin.ext (by show k.val % 256 = ci.val; omega)
  have h4 : (⟨r.val % 256, Nat.mod_lt _ (by decide)⟩ : Fin 256) = co := Fin.ext (by show r.val % 256 = co.val; omega)
  unfold packK
  rw [h1, h2, h3, h4]

/-- Tap (kh, kw) of the image at position p: the value read, or 0 outside the image. -/
def tap (X : Img) (kh kw : Nat) (ci : Fin 256) (p : Fin 1024) : EReal :=
  if ok kh kw p then X ci (rot (1057 - 32 * kh - kw) p) else 0

/-- Row tap kh of the image at position p (kernel column still to be applied). -/
def rowtap (X : Img) (kh : Nat) (ci : Fin 256) (p : Fin 1024) : EReal :=
  if kh = 0 then X ci (rot 32 p) * ind (1 ≤ p.val / 32)
  else if kh = 1 then X ci p
  else X ci (rot 992 p) * ind (p.val / 32 ≤ 30)

theorem stackK_at (X : Img) (kh : Fin 3) (ci : Fin 256) (k : Fin 768) (hk : k.val = ci.val + 256 * kh.val)
    (p : Fin 1024) : stackK X k p = rowtap X kh.val ci p := by
  have h3 : (⟨k.val % 256, Nat.mod_lt _ (by decide)⟩ : Fin 256) = ci := Fin.ext (by show k.val % 256 = ci.val; omega)
  have h1 : k.val / 256 = kh.val := by omega
  unfold stackK rowtap
  rw [h3, h1]

theorem prodK_pack (W : Wt) (X : Img) (kw : Fin 3) (co : Fin 256) (r : Fin 768)
    (hr : r.val = co.val + 256 * kw.val) (p : Fin 1024) :
    prodK (packK W) X r p = ∑ kh : Fin 3, ∑ ci : Fin 256, W kh kw ci co * rowtap X kh.val ci p := by
  unfold prodK
  rw [sum_fin_mul (by norm_num : 3 * 256 = 768)]
  refine Finset.sum_congr rfl (fun kh _ => Finset.sum_congr rfl (fun ci _ => ?_))
  rw [packK_at W kh kw ci co r _ hr (cast_fpf_val _ kh ci), stackK_at X kh ci _ (cast_fpf_val _ kh ci)]

theorem rowtap_mid (X : Img) (kh : Nat) (hkh : kh < 3) (ci : Fin 256) (p : Fin 1024) :
    rowtap X kh ci p = tap X kh 1 ci p := by
  unfold rowtap tap
  interval_cases kh
  · rw [if_pos rfl]
    refine mask_eq _ _ _ _ ?_ (fun _ => congrArg (X ci) (Fin.ext ?_))
    · unfold ok; omega
    · simp only [rot_val]
  · rw [if_neg (by decide : ¬ ((1:ℕ) = 0)), if_pos rfl, if_pos (by unfold ok; omega)]
    exact congrArg (X ci) (Fin.ext (by simp only [rot_val] <;> omega))
  · rw [if_neg (by decide : ¬ ((2:ℕ) = 0)), if_neg (by decide : ¬ ((2:ℕ) = 1))]
    refine mask_eq _ _ _ _ ?_ (fun _ => congrArg (X ci) (Fin.ext ?_))
    · unfold ok; omega
    · simp only [rot_val]

theorem rowtap_left (X : Img) (kh : Nat) (hkh : kh < 3) (ci : Fin 256) (p : Fin 1024) (hp : 1 ≤ p.val % 32) :
    rowtap X kh ci (rot 1 p) = tap X kh 0 ci p := by
  unfold rowtap tap
  interval_cases kh
  · rw [if_pos rfl]
    refine mask_eq _ _ _ _ ?_ (fun _ => congrArg (X ci) (Fin.ext ?_))
    · unfold ok; simp only [rot_val] <;> omega
    · simp only [rot_val] <;> omega
  · rw [if_neg (by decide : ¬ ((1:ℕ) = 0)), if_pos rfl, if_pos (by unfold ok; omega)]
    exact congrArg (X ci) (Fin.ext (by simp only [rot_val] <;> omega))
  · rw [if_neg (by decide : ¬ ((2:ℕ) = 0)), if_neg (by decide : ¬ ((2:ℕ) = 1))]
    refine mask_eq _ _ _ _ ?_ (fun _ => congrArg (X ci) (Fin.ext ?_))
    · unfold ok; simp only [rot_val] <;> omega
    · simp only [rot_val] <;> omega

theorem rowtap_right (X : Img) (kh : Nat) (hkh : kh < 3) (ci : Fin 256) (p : Fin 1024) (hp : p.val % 32 ≤ 30) :
    rowtap X kh ci (rot 1023 p) = tap X kh 2 ci p := by
  unfold rowtap tap
  interval_cases kh
  · rw [if_pos rfl]
    refine mask_eq _ _ _ _ ?_ (fun _ => congrArg (X ci) (Fin.ext ?_))
    · unfold ok; simp only [rot_val] <;> omega
    · simp only [rot_val] <;> omega
  · rw [if_neg (by decide : ¬ ((1:ℕ) = 0)), if_pos rfl, if_pos (by unfold ok; omega)]
  · rw [if_neg (by decide : ¬ ((2:ℕ) = 0)), if_neg (by decide : ¬ ((2:ℕ) = 1))]
    refine mask_eq _ _ _ _ ?_ (fun _ => congrArg (X ci) (Fin.ext ?_))
    · unfold ok; simp only [rot_val] <;> omega
    · simp only [rot_val] <;> omega

theorem tap_left_zero (X : Img) (kh : Nat) (ci : Fin 256) (p : Fin 1024) (hp : ¬ 1 ≤ p.val % 32) :
    tap X kh 0 ci p = 0 := by
  unfold tap
  rw [if_neg (by unfold ok; omega)]

theorem tap_right_zero (X : Img) (kh : Nat) (ci : Fin 256) (p : Fin 1024) (hp : ¬ p.val % 32 ≤ 30) :
    tap X kh 2 ci p = 0 := by
  unfold tap
  rw [if_neg (by unfold ok; omega)]

/-- One kernel column of the convolution: all kernel rows and input channels of column kw. -/
def colsum (W : Wt) (X : Img) (co : Fin 256) (kw : Fin 3) (p : Fin 1024) : EReal :=
  ∑ kh : Fin 3, ∑ ci : Fin 256, W kh kw ci co * tap X kh.val kw.val ci p

/-- The convolution in neutral form: the three kernel columns, plus the bias. -/
def conv (W : Wt) (B : Fin 256 → EReal) (X : Img) (co : Fin 256) (p : Fin 1024) : EReal :=
  (∑ kw : Fin 3, colsum W X co kw p) + B co

theorem colK_mid (W : Wt) (X : Img) (co : Fin 256) (p : Fin 1024) :
    prodK (packK W) X ⟨256 + co.val, by omega⟩ p = colsum W X co 1 p := by
  rw [prodK_pack W X 1 co _ (by show 256 + co.val = co.val + 256 * 1; omega)]
  unfold colsum
  refine Finset.sum_congr rfl (fun kh _ => Finset.sum_congr rfl (fun ci _ => ?_))
  rw [rowtap_mid X kh.val kh.isLt ci p]
  rfl

theorem colK_left (W : Wt) (X : Img) (co : Fin 256) (p : Fin 1024) :
    prodK (packK W) X ⟨co.val, by omega⟩ (rot 1 p) * ind (1 ≤ p.val % 32) = colsum W X co 0 p := by
  rw [prodK_pack W X 0 co _ (by show co.val = co.val + 256 * 0; omega)]
  unfold colsum
  by_cases h : 1 ≤ p.val % 32
  · rw [ind, if_pos h, mul_one]
    refine Finset.sum_congr rfl (fun kh _ => Finset.sum_congr rfl (fun ci _ => ?_))
    rw [rowtap_left X kh.val kh.isLt ci p h]
    rfl
  · rw [ind, if_neg h, mul_zero]
    symm
    refine Finset.sum_eq_zero (fun kh _ => Finset.sum_eq_zero (fun ci _ => ?_))
    show W kh 0 ci co * tap X kh.val 0 ci p = 0
    rw [tap_left_zero X kh.val ci p h, mul_zero]

theorem colK_right (W : Wt) (X : Img) (co : Fin 256) (p : Fin 1024) :
    prodK (packK W) X ⟨512 + co.val, by omega⟩ (rot 1023 p) * ind (p.val % 32 ≤ 30) = colsum W X co 2 p := by
  rw [prodK_pack W X 2 co _ (by show 512 + co.val = co.val + 256 * 2; omega)]
  unfold colsum
  by_cases h : p.val % 32 ≤ 30
  · rw [ind, if_pos h, mul_one]
    refine Finset.sum_congr rfl (fun kh _ => Finset.sum_congr rfl (fun ci _ => ?_))
    rw [rowtap_right X kh.val kh.isLt ci p h]
    rfl
  · rw [ind, if_neg h, mul_zero]
    symm
    refine Finset.sum_eq_zero (fun kh _ => Finset.sum_eq_zero (fun ci _ => ?_))
    show W kh 2 ci co * tap X kh.val 2 ci p = 0
    rw [tap_right_zero X kh.val ci p h, mul_zero]

theorem convK_eq_conv (W : Wt) (B : Fin 256 → EReal) (X : Img) (co : Fin 256) (p : Fin 1024) :
    convK (packK W) B X co p = conv W B X co p := by
  unfold convK conv
  rw [colK_mid, colK_left, colK_right, Fin.sum_univ_three, add_comm (colsum W X co 1 p) (colsum W X co 0 p)]

theorem packR_at (W : Wt) (kh kw : Fin 3) (ci co : Fin 256) (k : Fin 2304)
    (hk : k.val = ci.val + 256 * (kw.val + 3 * kh.val)) : packR W co k = W kh kw ci co := by
  have h1 : (⟨k.val / 768, by have := k.isLt; omega⟩ : Fin 3) = kh := Fin.ext (by show k.val / 768 = kh.val; omega)
  have h2 : (⟨(k.val / 256) % 3, Nat.mod_lt _ (by decide)⟩ : Fin 3) = kw :=
    Fin.ext (by show (k.val / 256) % 3 = kw.val; omega)
  have h3 : (⟨k.val % 256, Nat.mod_lt _ (by decide)⟩ : Fin 256) = ci := Fin.ext (by show k.val % 256 = ci.val; omega)
  unfold packR
  rw [h1, h2, h3]

theorem stackR_at (X : Img) (kh kw : Fin 3) (ci : Fin 256) (k : Fin 2304)
    (hk : k.val = ci.val + 256 * (kw.val + 3 * kh.val)) (p : Fin 1024) :
    stackR X k p = tap X kh.val kw.val ci p := by
  have h1 : k.val / 768 = kh.val := by omega
  have h2 : (k.val / 256) % 3 = kw.val := by omega
  have h3 : (⟨k.val % 256, Nat.mod_lt _ (by decide)⟩ : Fin 256) = ci := Fin.ext (by show k.val % 256 = ci.val; omega)
  unfold stackR tap
  rw [h3, h1, h2]
  by_cases h : k.val / 256 = 4
  · have hkh : kh.val = 1 := by omega
    have hkw : kw.val = 1 := by omega
    rw [if_pos h, hkh, hkw, if_pos (by unfold ok; omega)]
    exact congrArg (X ci) (Fin.ext (by simp only [rot_val] <;> omega))
  · rw [if_neg h]
    exact mask_eq _ _ _ _ Iff.rfl (fun _ => rfl)

theorem prodR_pack (W : Wt) (X : Img) (co : Fin 256) (p : Fin 1024) :
    prodR (packR W) X co p = ∑ kh : Fin 3, ∑ kw : Fin 3, ∑ ci : Fin 256, W kh kw ci co * tap X kh.val kw.val ci p := by
  unfold prodR
  rw [sum_fin_mul (by norm_num : 9 * 256 = 2304), sum_fin_mul (by norm_num : 3 * 3 = 9)]
  refine Finset.sum_congr rfl (fun kh _ => Finset.sum_congr rfl (fun kw _ => Finset.sum_congr rfl (fun ci _ => ?_)))
  have hk : (Fin.cast (by norm_num : 9 * 256 = 2304)
      (finProdFinEquiv (Fin.cast (by norm_num : 3 * 3 = 9) (finProdFinEquiv (kh, kw)), ci))).val
      = ci.val + 256 * (kw.val + 3 * kh.val) := rfl
  rw [packR_at W kh kw ci co _ hk, stackR_at X kh kw ci _ hk]

theorem convR_eq_conv (W : Wt) (B : Fin 256 → EReal) (X : Img) (co : Fin 256) (p : Fin 1024) :
    convR (packR W) B X co p = conv W B X co p := by
  unfold convR conv colsum
  rw [prodR_pack, Finset.sum_comm]

theorem convK_packK_eq_convR_packR (W : Wt) (B : Fin 256 → EReal) (X : Img) :
    convK (packK W) B X = convR (packR W) B X := by
  funext co p
  rw [convK_eq_conv, convR_eq_conv]

theorem blockK_eq_blockR (W1 : Wt) (B1 : Fin 256 → EReal) (W2 : Wt) (B2 : Fin 256 → EReal) (X : Img) :
    blockK (packK W1) B1 (packK W2) B2 X = blockR (packR W1) B1 (packR W2) B2 X := by
  have h1 : convK (packK W1) B1 = convR (packR W1) B1 := funext (fun Y => convK_packK_eq_convR_packR W1 B1 Y)
  have h2 : convK (packK W2) B2 = convR (packR W2) B2 := funext (fun Y => convK_packK_eq_convR_packR W2 B2 Y)
  funext co p
  unfold blockK blockR
  rw [h1, h2]

theorem outK_eq_outR (x : (⟨4, ![32, 256, 32, 32]⟩ : Shape).Idx → EReal) (w1 : (⟨4, ![3, 3, 256, 256]⟩ : Shape).Idx → EReal)
    (b1 : (⟨1, ![256]⟩ : Shape).Idx → EReal) (w2 : (⟨4, ![3, 3, 256, 256]⟩ : Shape).Idx → EReal)
    (b2 : (⟨1, ![256]⟩ : Shape).Idx → EReal) : outK x w1 b1 w2 b2 = outR x w1 b1 w2 b2 := by
  funext i
  unfold outK outR
  rw [blockK_eq_blockR]

end Cert.ResBlock

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibGrid2.lean ====
/-
  Two layout operations on a two-axis array, read at a pair of coordinates.

  * A rotation along the second axis by the word `sb` reads, at `(i, j)`, the operand at `(i, k)` where `k` is `j` moved
    back by the amount around the end: `k = (j + b - sb mod b) mod b`.
  * An array of one column, `[a, 1]`, broadcast to `[a, b]` reads, at `(p, c)`, the operand's row `p`.
-/
import Idealize.ShloMosaic.Lib.ValueIdx
import Idealize.ShloMosaic.Lib.Pipeline.Value
import Idealize.ShloMosaic.Lib.KernelVsHost

namespace Cert.Grid2

open Idealize.ShloMosaic Idealize.ShloMosaic.ValueIdx

variable {α : Type}

/-- A rotation along the second axis, read at `(i, j)`: the operand at `(i, k)`, `k` being `j` moved back around the end. -/
theorem dynamicRotate_axis1_apply {a b : ℕ} (sb : BitVec 32) (x : (⟨2, ![a, b]⟩ : Shape).Idx → α)
    (h : (⟨2, ![a, b]⟩ : Shape).Rotates 1 none) (i : Fin a) (j k : Fin b)
    (hk : k.val = (j.val + b - sb.toNat % b) % b) :
    dynamicRotate 1 sb none x h (ix2 i j) = x (ix2 i k) :=
  dynamicRotate_apply 1 sb x h (ix2 i j) (ix2 i k) fun c =>
    match c with
    | ⟨0, _⟩ => (if_neg (Fin.ne_of_val_ne Nat.zero_ne_one)).symm
    | ⟨1, _⟩ => hk.trans (if_pos rfl).symm

/-- One column broadcast along the rows, read at `(p, c)`: the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Grid2
-- ==== Proof.KBodyMask.lean ====
/-
  The four 0/1 masks of the residual block's body, read at a position.

  The body numbers the 1024 positions of an image with a 32-bit counter.  It takes the image row as the floor of the
  counter over 32 (a truncating division, less one where the signs of the operands differ and the remainder is not
  zero) and the image column as the counter less 32 times the row, and turns four signed comparisons (row at least 1,
  row at most 30, column at least 1, column at most 30) into the numbers 0 and 1.  On the positions 0 … 1023 the
  counter is not negative, the correction never applies, and row and column are p / 32 and p % 32: each mask word is
  compared with that by evaluation over the 1024 positions, and the words 0 and 1 convert to the numbers 0 and 1.
-/
import proofs.«157068_g2000402456168593_pallasbulk_172_2_alg».proof.Proof.Gen.KernelIdeal.Skeleton
import proofs.«157068_g2000402456168593_pallasbulk_172_2_alg».proof.Proof.Spec
import Idealize.ShloMosaic.Lib.ValueIdx
import Idealize.ShloMosaic.Lib.Pipeline.Value
import Idealize.ShloMosaic.Lib.KernelVsHost

noncomputable section

namespace Cert.KernelIdeal.Body

open Idealize.ShloMosaic Idealize.ShloMosaic.ValueIdx Cert.KernelIdeal Cert.ResBlock

/-- The image row of the position word `x`, as the body spells a floor division by 32. -/
def rowW (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- The image column of the position word `x`: the word less 32 times its row. -/
def colW (x : BitVec 32) : BitVec 32 := IntOp.subi x (IntOp.muli (rowW x) 32#32)

/-- "At least 1", as a 32-bit 0/1 word. -/
def geW (r : BitVec 32) : BitVec 32 := (IntOp.cmpi .sge r 1#32).setWidth 32

/-- "At most 30", as a 32-bit 0/1 word. -/
def leW (r : BitVec 32) : BitVec 32 := (IntOp.cmpi .sle r 30#32).setWidth 32

/-- The row vector at position `p` is the row word of `p`. -/
theorem pay2_apply (p : Fin 1024) : Gen.k0_pay2 (ix2 (0 : Fin 1) p) = rowW (BitVec.ofNat 32 p.val) := by
  show rowW (iota .tc S1x1024 32 [1] Gen.iota_S1x1024_d1_w32 (ix2 (0 : Fin 1) p)) = _
  rw [iota_single_apply]

/-- The column vector at position `p` is the column word of `p`. -/
theorem pay3_apply (p : Fin 1024) : Gen.k0_pay3 (ix2 (0 : Fin 1) p) = colW (BitVec.ofNat 32 p.val) := by
  show IntOp.subi (iota .tc S1x1024 32 [1] Gen.iota_S1x1024_d1_w32 (ix2 (0 : Fin 1) p))
      (IntOp.muli (Gen.k0_pay2 (ix2 (0 : Fin 1) p)) 32#32) = _
  rw [iota_single_apply, pay2_apply]
  rfl

/-! ## The mask words, over the 1024 positions -/

theorem rowGe_word : ∀ p : Fin 1024, geW (rowW (BitVec.ofNat 32 p.val)) = if 1 ≤ p.val / 32 then 1#32 else 0#32 := by
  decide +kernel

theorem rowLe_word : ∀ p : Fin 1024, leW (rowW (BitVec.ofNat 32 p.val)) = if p.val / 32 ≤ 30 then 1#32 else 0#32 := by
  decide +kernel

theorem colGe_word : ∀ p : Fin 1024, geW (colW (BitVec.ofNat 32 p.val)) = if 1 ≤ p.val % 32 then 1#32 else 0#32 := by
  decide +kernel

theorem colLe_word : ∀ p : Fin 1024, leW (colW (BitVec.ofNat 32 p.val)) = if p.val % 32 ≤ 30 then 1#32 else 0#32 := by
  decide +kernel

/-! ## The words 0 and 1 as numbers -/

/-- A 0/1 word chosen by a condition, read as a signed integer, is the condition's 0/1 value. -/
theorem cast_ite_word (c : Prop) [Decidable c] :
    ((((if c then 1#32 else 0#32 : BitVec 32).toInt : ℤ) : ℝ) : EReal) = ind c := by
  unfold ind
  by_cases h : c
  · rw [if_pos h, if_pos h, show (1#32 : BitVec 32).toInt = 1 from by decide]; simp
  · rw [if_neg h, if_neg h, show (0#32 : BitVec 32).toInt = 0 from by decide]; simp

/-! ## The four masks at a position -/

/-- Row at least 1 (the image row above exists). -/
theorem pay4_apply (p : Fin 1024) : Gen.k0_pay4 (F := Ideal) (ix2 (0 : Fin 1) p) = ind (1 ≤ p.val / 32) := by
  show ((((geW (Gen.k0_pay2 (ix2 (0 : Fin 1) p))).toInt : ℤ) : ℝ) : EReal) = _
  rw [pay2_apply, rowGe_word, cast_ite_word]

/-- Row at most 30 (the image row below exists). -/
theorem pay5_apply (p : Fin 1024) : Gen.k0_pay5 (F := Ideal) (ix2 (0 : Fin 1) p) = ind (p.val / 32 ≤ 30) := by
  show ((((leW (Gen.k0_pay2 (ix2 (0 : Fin 1) p))).toInt : ℤ) : ℝ) : EReal) = _
  rw [pay2_apply, rowLe_word, cast_ite_word]

/-- Column at least 1 (the column to the left exists). -/
theorem pay6_apply (p : Fin 1024) : Gen.k0_pay6 (F := Ideal) (ix2 (0 : Fin 1) p) = ind (1 ≤ p.val % 32) := by
  show ((((geW (Gen.k0_pay3 (ix2 (0 : Fin 1) p))).toInt : ℤ) : ℝ) : EReal) = _
  rw [pay3_apply, colGe_word, cast_ite_word]

/-- Column at most 30 (the column to the right exists). -/
theorem pay7_apply (p : Fin 1024) : Gen.k0_pay7 (F := Ideal) (ix2 (0 : Fin 1) p) = ind (p.val % 32 ≤ 30) := by
  show ((((leW (Gen.k0_pay3 (ix2 (0 : Fin 1) p))).toInt : ℤ) : ℝ) : EReal) = _
  rw [pay3_apply, colLe_word, cast_ite_word]

end Cert.KernelIdeal.Body

end
-- ==== Proof.KBodyStage.lean ====
/-
  One convolution stage of the residual block's body, read at an index.

  A stage takes an image `Y` (256 channels by 1024 positions) and does three things.

  * It STACKS three copies of `Y` to 768 rows: `Y` rotated by 32 positions (one image row) and cleared where the image
    row above does not exist, `Y` itself, and `Y` rotated by 992 positions (one image row the other way) and cleared
    where the image row below does not exist.  Row `k` of the stack lies in copy `k / 256`, at channel `k % 256`.
  * It MULTIPLIES the 768 x 768 matrix by the stack, accumulating into zero: entry `(r, p)` is the sum over the 768
    stack rows `k` of `A (r, k)` times the stack's `(k, p)`.
  * It ADDS the middle band of the product (rows 256 … 511), the top band (rows 0 … 255) rotated by one position and
    cleared on the image's first column, the bottom band (rows 512 … 767) rotated by 1023 positions and cleared on
    the image's last column, and the bias column broadcast along the positions.

  Each step read at an index is the corresponding definition of the specification.
-/
import proofs.«157068_g2000402456168593_pallasbulk_172_2_alg».proof.Proof.Gen.KernelIdeal.Skeleton
import proofs.«157068_g2000402456168593_pallasbulk_172_2_alg».proof.Proof.Spec
import proofs.«157068_g2000402456168593_pallasbulk_172_2_alg».proof.Proof.LibPlainMatmul
import proofs.«157068_g2000402456168593_pallasbulk_172_2_alg».proof.Proof.LibGrid2
import proofs.«157068_g2000402456168593_pallasbulk_172_2_alg».proof.Proof.KBodyMask
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.ResBlock

/-! ## Rotations along the positions -/

/-- A rotation of a [256, 1024] array along the positions by a word of value `s`, read at `(c, p)`: the operand at the
    position `s` places back, around the end. -/
theorem rot_apply {φ : FTy} (sb : BitVec 32) (s : ℕ) (hs : sb.toNat = s) (Y : FVec Ideal S256x1024 φ)
    (c : Fin 256) (p : Fin 1024) :
    dynamicRotate 1 sb none Y Gen.rotates_S256x1024_d1 (ix2 c p) = Y (ix2 c (rot s p)) :=
  Cert.Grid2.dynamicRotate_axis1_apply sb Y Gen.rotates_S256x1024_d1 c p (rot s p) (by subst hs; rfl)

/-! ## Three [256, 1024] blocks stacked along the rows -/

/-- Three blocks of 256 rows stacked to 768 rows, read at `(k, p)`: block `k / 256` at row `k % 256`. -/
theorem concat3_apply {α : Type} (P0 P1 P2 : S256x1024.Idx → α) (k : Fin 768) (p : Fin 1024) :
    concatenate S768x1024 0 [⟨S256x1024, P0⟩, ⟨S256x1024, P1⟩, ⟨S256x1024, P2⟩]
        Gen.concatenates_S256x1024_S256x1024_S256x1024_S768x1024_d0 (ix2 k p)
      = if k.val / 256 = 0 then P0 (ix2 ⟨k.val % 256, Nat.mod_lt _ (by decide)⟩ p)
        else if k.val / 256 = 1 then P1 (ix2 ⟨k.val % 256, Nat.mod_lt _ (by decide)⟩ p)
        else P2 (ix2 ⟨k.val % 256, Nat.mod_lt _ (by decide)⟩ p) := by
  have hk := k.isLt
  have hi : ∀ b : Fin S256x1024.rank, b.cast (rfl : S256x1024.rank = S768x1024.rank) ≠ (0 : Fin S768x1024.rank) →
      ((ix2 (⟨k.val % 256, Nat.mod_lt _ (by decide)⟩ : Fin 256) p : S256x1024.Idx) b).val
        = ((ix2 k p : S768x1024.Idx) (b.cast (rfl : S256x1024.rank = S768x1024.rank))).val := fun b hb =>
    match b, hb with
    | ⟨0, _⟩, hb => absurd (Fin.ext rfl) hb
    | ⟨1, _⟩, _ => rfl
  by_cases h0 : k.val / 256 = 0
  · rw [if_pos h0]
    exact concatenate_apply_piece (0 : Fin S768x1024.rank) _ _ (ix2 k p) 0 (by show (0 : ℕ) < 3; omega) S256x1024 P0 rfl rfl
      0 rfl (ix2 ⟨k.val % 256, Nat.mod_lt _ (by decide)⟩ p) hi (by show 0 + k.val % 256 = k.val; omega)
  · rw [if_neg h0]
    by_cases h1 : k.val / 256 = 1
    · rw [if_pos h1]
      exact concatenate_apply_piece (0 : Fin S768x1024.rank) _ _ (ix2 k p) 1 (by show (1 : ℕ) < 3; omega) S256x1024 P1 rfl rfl
        256 rfl (ix2 ⟨k.val % 256, Nat.mod_lt _ (by decide)⟩ p) hi (by show 256 + k.val % 256 = k.val; omega)
    · rw [if_neg h1]
      exact concatenate_apply_piece (0 : Fin S768x1024.rank) _ _ (ix2 k p) 2 (by show (2 : ℕ) < 3; omega) S256x1024 P2 rfl rfl
        512 rfl (ix2 ⟨k.val % 256, Nat.mod_lt _ (by decide)⟩ p) hi (by show 512 + k.val % 256 = k.val; omega)

/-! ## The stack -/

/-- The stacked operand of a stage, from the image `Y`. -/
def stk (Y : FVec Ideal S256x1024 .bf16) : FVec Ideal S768x1024 .bf16 :=
  concatenate S768x1024 0
    [⟨S256x1024, mulf (dynamicRotate 1 32#32 none Y Gen.rotates_S256x1024_d1)
        (broadcastTo S256x1024 (Gen.k0_pay4 (F := Ideal)) Gen.broadcasts_S1x1024_S256x1024)⟩,
     ⟨S256x1024, Y⟩,
     ⟨S256x1024, mulf (dynamicRotate 1 992#32 none Y Gen.rotates_S256x1024_d1)
        (broadcastTo S256x1024 (Gen.k0_pay5 (F := Ideal)) Gen.broadcasts_S1x1024_S256x1024)⟩]
    Gen.concatenates_S256x1024_S256x1024_S256x1024_S768x1024_d0

/-- The stack read at `(k, p)` is the specification's stack of the image. -/
theorem stk_apply (Y : FVec Ideal S256x1024 .bf16) (k : Fin 768) (p : Fin 1024) :
    stk Y (ix2 k p) = stackK (fun c q => Y (ix2 c q)) k p := by
  have e0 : ∀ c : Fin 256,
      mulf (dynamicRotate 1 32#32 none Y Gen.rotates_S256x1024_d1)
        (broadcastTo S256x1024 (Gen.k0_pay4 (F := Ideal)) Gen.broadcasts_S1x1024_S256x1024) (ix2 c p)
        = Y (ix2 c (rot 32 p)) * ind (1 ≤ p.val / 32) := fun c => by
    show dynamicRotate 1 32#32 none Y Gen.rotates_S256x1024_d1 (ix2 c p)
      * broadcastTo S256x1024 (Gen.k0_pay4 (F := Ideal)) Gen.broadcasts_S1x1024_S256x1024 (ix2 c p) = _
    rw [rot_apply 32#32 32 rfl, broadcastTo_1b_ab_apply, pay4_apply]
  have e2 : ∀ c : Fin 256,
      mulf (dynamicRotate 1 992#32 none Y Gen.rotates_S256x1024_d1)
        (broadcastTo S256x1024 (Gen.k0_pay5 (F := Ideal)) Gen.broadcasts_S1x1024_S256x1024) (ix2 c p)
        = Y (ix2 c (rot 992 p)) * ind (p.val / 32 ≤ 30) := fun c => by
    show dynamicRotate 1 992#32 none Y Gen.rotates_S256x1024_d1 (ix2 c p)
      * broadcastTo S256x1024 (Gen.k0_pay5 (F := Ideal)) Gen.broadcasts_S1x1024_S256x1024 (ix2 c p) = _
    rw [rot_apply 992#32 992 rfl, broadcastTo_1b_ab_apply, pay5_apply]
  unfold stk
  rw [concat3_apply, e0, e2]
  rfl

/-! ## The product -/

/-- The product of the 768 x 768 matrix with a stack, accumulated into zero. -/
def prd (A : FVec Ideal S768x768 .bf16) (S : FVec Ideal S768x1024 .bf16) : FVec Ideal S768x1024 .f32 :=
  matmul dot_S768x768_S768x1024_S768x1024_1_0_0_1_n_n none A S (constant (F := Ideal) S768x1024 .f32 0x00000000#32)

/-- The product read at `(r, p)`: the sum over the stack rows. -/
theorem prd_apply (A : FVec Ideal S768x768 .bf16) (S : FVec Ideal S768x1024 .bf16) (r : Fin 768) (p : Fin 1024) :
    prd A S (ix2 r p) = ∑ k : Fin 768, A (ix2 r k) * S (ix2 k p) :=
  Cert.PointConv.plainMatmul_zero_apply (R := 768) (n := 768) (k := 1024) _ none A S r p

/-- The product with the stack of `Y` is the specification's product. -/
theorem prd_stk_apply (A : FVec Ideal S768x768 .bf16) (Y : FVec Ideal S256x1024 .bf16) (r : Fin 768) (p : Fin 1024) :
    prd A (stk Y) (ix2 r p) = prodK (fun r k => A (ix2 r k)) (fun c q => Y (ix2 c q)) r p := by
  rw [prd_apply]
  unfold prodK
  exact Finset.sum_congr rfl fun k _ => by rw [stk_apply]

/-! ## The stage -/

/-- The three bands of the product, shifted, cleared and added, plus the bias. -/
def cnv (A : FVec Ideal S768x768 .bf16) (B : FVec Ideal S256x1 .f32) (S : FVec Ideal S768x1024 .bf16) :
    FVec Ideal S256x1024 .f32 :=
  addf
    (addf
      (addf (extractStridedSlice S256x1024 ![256, 0] (prd A S) Gen.slices_S768x1024_o256_0_S256x1024)
        (mulf
          (dynamicRotate 1 1#32 none
            (extractStridedSlice S256x1024 ![0, 0] (prd A S) Gen.slices_S768x1024_o0_0_S256x1024) Gen.rotates_S256x1024_d1)
          (broadcastTo S256x1024 (Gen.k0_pay6 (F := Ideal)) Gen.broadcasts_S1x1024_S256x1024)))
      (mulf
        (dynamicRotate 1 1023#32 none
          (extractStridedSlice S256x1024 ![512, 0] (prd A S) Gen.slices_S768x1024_o512_0_S256x1024) Gen.rotates_S256x1024_d1)
        (broadcastTo S256x1024 (Gen.k0_pay7 (F := Ideal)) Gen.broadcasts_S1x1024_S256x1024)))
    (broadcastTo S256x1024 B Gen.broadcasts_S256x1_S256x1024)

/-- A stage over the stack of `Y`, read at `(co, p)`, is the specification's convolution of the image. -/
theorem cnv_apply (A : FVec Ideal S768x768 .bf16) (B : FVec Ideal S256x1 .f32) (Y : FVec Ideal S256x1024 .bf16)
    (co : Fin 256) (p : Fin 1024) :
    cnv A B (stk Y) (ix2 co p)
      = convK (fun r k => A (ix2 r k)) (fun c => B (ix2 c (0 : Fin 1))) (fun c q => Y (ix2 c q)) co p := by
  have hco := co.isLt
  have t1 : extractStridedSlice S256x1024 ![256, 0] (prd A (stk Y)) Gen.slices_S768x1024_o256_0_S256x1024 (ix2 co p)
      = prodK (fun r k => A (ix2 r k)) (fun c q => Y (ix2 c q)) ⟨256 + co.val, by omega⟩ p :=
    (slice2_axis0_apply 256 (prd A (stk Y)) Gen.slices_S768x1024_o256_0_S256x1024 co p ⟨256 + co.val, by omega⟩ rfl).trans
      (prd_stk_apply A Y _ p)
  have t2 : dynamicRotate 1 1#32 none
        (extractStridedSlice S256x1024 ![0, 0] (prd A (stk Y)) Gen.slices_S768x1024_o0_0_S256x1024)
        Gen.rotates_S256x1024_d1 (ix2 co p)
      = prodK (fun r k => A (ix2 r k)) (fun c q => Y (ix2 c q)) ⟨co.val, by omega⟩ (rot 1 p) :=
    (rot_apply 1#32 1 rfl _ co p).trans
      ((slice2_axis0_apply 0 (prd A (stk Y)) Gen.slices_S768x1024_o0_0_S256x1024 co (rot 1 p) ⟨co.val, by omega⟩
        (Nat.zero_add _).symm).trans (prd_stk_apply A Y _ _))
  have t3 : dynamicRotate 1 1023#32 none
        (extractStridedSlice S256x1024 ![512, 0] (prd A (stk Y)) Gen.slices_S768x1024_o512_0_S256x1024)
        Gen.rotates_S256x1024_d1 (ix2 co p)
      = prodK (fun r k => A (ix2 r k)) (fun c q => Y (ix2 c q)) ⟨512 + co.val, by omega⟩ (rot 1023 p) :=
    (rot_apply 1023#32 1023 rfl _ co p).trans
      ((slice2_axis0_apply 512 (prd A (stk Y)) Gen.slices_S768x1024_o512_0_S256x1024 co (rot 1023 p)
        ⟨512 + co.val, by omega⟩ rfl).trans (prd_stk_apply A Y _ _))
  have t4 : broadcastTo S256x1024 (Gen.k0_pay6 (F := Ideal)) Gen.broadcasts_S1x1024_S256x1024 (ix2 co p)
      = ind (1 ≤ p.val % 32) := (broadcastTo_1b_ab_apply _ _ co p).trans (pay6_apply p)
  have t5 : broadcastTo S256x1024 (Gen.k0_pay7 (F := Ideal)) Gen.broadcasts_S1x1024_S256x1024 (ix2 co p)
      = ind (p.val % 32 ≤ 30) := (broadcastTo_1b_ab_apply _ _ co p).trans (pay7_apply p)
  have t6 : broadcastTo S256x1024 B Gen.broadcasts_S256x1_S256x1024 (ix2 co p) = B (ix2 co (0 : Fin 1)) :=
    Cert.Grid2.broadcastTo_a1_ab_apply B Gen.broadcasts_S256x1_S256x1024 co p
  unfold cnv
  simp only [addf_apply, mulf_apply]
  rw [t1, t2, t3, t4, t5, t6]
  rfl

end Cert.KernelIdeal.Body

end
-- ==== Proof.KBody.lean ====
/-
  The residual block's body, read at an index.

  What the body leaves in its output block is the payload of its one store through the whole block, over the input
  blocks as loaded whole.  That payload is two convolution stages and a residual sum: the image, viewed [256, 1024], goes
  through the first stage (first matrix and bias) and is clamped below at 0; the result goes through the second stage
  (second matrix and bias), the image is added, the sum is clamped below at 0 and viewed [1, 256, 1024] again.  At the
  ideal values rounding to the product's input format changes nothing, and the zero word is the number 0.  Each stage is
  the specification's convolution of its input image, so the whole is the specification's block.
-/
import proofs.«157068_g2000402456168593_pallasbulk_172_2_alg».proof.Proof.Gen.KernelIdeal.Frame
import proofs.«157068_g2000402456168593_pallasbulk_172_2_alg».proof.Proof.Spec
import proofs.«157068_g2000402456168593_pallasbulk_172_2_alg».proof.Proof.KBodyStage
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.ResBlock

theorem hz2 : (![0, 0] : Fin 2 → Nat) = fun _ => 0 := funext fun a => by fin_cases a <;> rfl
theorem hz3 : (![0, 0, 0] : Fin 3 → Nat) = fun _ => 0 := funext fun a => by fin_cases a <;> rfl

/-! ## The image and the clamped first stage -/

/-- The image block viewed [256, 1024], in the product's input format. -/
def img (x0 : Vec Ideal S1x256x1024 .f32) : FVec Ideal S256x1024 .bf16 :=
  truncf .bf16 (Gen.k0_pay10 (F := Ideal) x0) Gen.bitsLt_bf16_f32

/-- Read at `(c, q)` it is the block at `(0, c, q)`. -/
theorem img_apply (x0 : Vec Ideal S1x256x1024 .f32) (c : Fin 256) (q : Fin 1024) :
    img x0 (ix2 c q) = x0 (ix3 (0 : Fin 1) c q) :=
  shapeCast_1ab_ab_apply x0 Gen.shapeCasts_S1x256x1024_S256x1024 c q

/-- The same view before the change of format. -/
theorem pay10_apply (x0 : Vec Ideal S1x256x1024 .f32) (c : Fin 256) (q : Fin 1024) :
    Gen.k0_pay10 (F := Ideal) x0 (ix2 c q) = x0 (ix3 (0 : Fin 1) c q) :=
  shapeCast_1ab_ab_apply x0 Gen.shapeCasts_S1x256x1024_S256x1024 c q

/-- A stage over the image `Y`, clamped below at 0, in the product's input format. -/
def mid (A : FVec Ideal S768x768 .bf16) (B : FVec Ideal S256x1 .f32) (Y : FVec Ideal S256x1024 .bf16) :
    FVec Ideal S256x1024 .bf16 :=
  truncf .bf16
    (maximumf (cnv A B (stk Y)) (broadcast S256x1024 (Scalar.ofBits (F := Ideal) .f32 0x00000000#32)))
    Gen.bitsLt_bf16_f32

/-- Read at `(c, q)`: the specification's convolution of `Y`, clamped below at 0. -/
theorem mid_apply (A : FVec Ideal S768x768 .bf16) (B : FVec Ideal S256x1 .f32) (Y : FVec Ideal S256x1024 .bf16)
    (c : Fin 256) (q : Fin 1024) :
    mid A B Y (ix2 c q)
      = max (convK (fun r k => A (ix2 r k)) (fun c => B (ix2 c (0 : Fin 1))) (fun c q => Y (ix2 c q)) c q) 0 := by
  show max (cnv A B (stk Y) (ix2 c q)) (Ideal.ofBits .f32 0x00000000#32) = _
  rw [cnv_apply, Ideal.ofBits_zero_f32]

/-! ## The payloads as compositions of the stages -/

/-- The second stage's stacked operand is the stack of the clamped first stage of the image. -/
theorem pay11_eq (x0 : Vec Ideal S1x256x1024 .f32) (x1 : Vec Ideal S768x768 .bf16) (x2 : Vec Ideal S256x1 .f32) :
    Gen.k0_pay11 (F := Ideal) (Gen.k0_pay4 (F := Ideal)) (Gen.k0_pay5 (F := Ideal)) (Gen.k0_pay6 (F := Ideal))
        (Gen.k0_pay7 (F := Ideal)) x1 x2 x0
      = stk (mid (shapeCast S768x768 x1 Gen.shapeCasts_S768x768_S768x768)
          (shapeCast S256x1 x2 Gen.shapeCasts_S256x1_S256x1) (img x0)) := rfl

/-- The stored value is the second stage over a stack, plus the image, clamped below at 0, viewed [1, 256, 1024]. -/
theorem pay1_eq (A : FVec Ideal S768x768 .bf16) (B : FVec Ideal S256x1 .f32) (X : FVec Ideal S256x1024 .f32)
    (S : FVec Ideal S768x1024 .bf16) :
    Gen.k0_pay1 (F := Ideal) (Gen.k0_pay6 (F := Ideal)) (Gen.k0_pay7 (F := Ideal)) A B X S
      = shapeCast S1x256x1024
          (maximumf (addf (cnv A B S) X) (broadcast S256x1024 (Scalar.ofBits (F := Ideal) .f32 0x00000000#32)))
          Gen.shapeCasts_S256x1024_S1x256x1024 := rfl

/-! ## The output block -/

/-- The body's output block at `(0, co, p)` is the specification's block of the image block, with the two matrices and
    the two bias columns as loaded. -/
theorem out_apply (x0 : Vec Ideal S1x256x1024 .f32) (x1 : Vec Ideal S768x768 .bf16) (x2 : Vec Ideal S256x1 .f32)
    (x3 : Vec Ideal S768x768 .bf16) (x4 : Vec Ideal S256x1 .f32) (co : Fin 256) (p : Fin 1024) :
    Cert.KernelIdeal.Gen.out0_5 (F := Ideal) x0 x1 x2 x3 x4 (ix3 (0 : Fin 1) co p)
      = Cert.ResBlock.blockK (fun r k => x1 (ix2 r k)) (fun c => x2 (ix2 c (0 : Fin 1))) (fun r k => x3 (ix2 r k))
          (fun c => x4 (ix2 c (0 : Fin 1))) (fun c q => x0 (ix3 (0 : Fin 1) c q)) co p := by
  unfold Gen.out0_5
  rw [View.canon_unit_zero hz3]
  simp only [View.ld_unit_zero (S := S768x768) hz2, View.ld_unit_zero (S := S256x1) hz2,
    View.ld_unit_zero (S := S1x256x1024) hz3]
  rw [pay11_eq, pay1_eq, shapeCast_ab_1ab_apply]
  show max (cnv (Gen.k0_pay8 (F := Ideal) x3) (Gen.k0_pay9 (F := Ideal) x4)
        (stk (mid (shapeCast S768x768 x1 Gen.shapeCasts_S768x768_S768x768)
          (shapeCast S256x1 x2 Gen.shapeCasts_S256x1_S256x1) (img x0))) (ix2 co p)
      + Gen.k0_pay10 (F := Ideal) x0 (ix2 co p)) (Ideal.ofBits .f32 0x00000000#32) = _
  rw [cnv_apply, Ideal.ofBits_zero_f32, pay10_apply]
  have hM : (fun (c : Fin 256) (q : Fin 1024) =>
        mid (shapeCast S768x768 x1 Gen.shapeCasts_S768x768_S768x768)
          (shapeCast S256x1 x2 Gen.shapeCasts_S256x1_S256x1) (img x0) (ix2 c q))
      = fun c q => max (convK (fun r k => x1 (ix2 r k)) (fun c => x2 (ix2 c (0 : Fin 1)))
          (fun c q => x0 (ix3 (0 : Fin 1) c q)) c q) 0 := by
    funext c q
    rw [mid_apply]
    simp only [shapeCast_self, img_apply]
  rw [hM]
  show max (convK (fun r k => shapeCast S768x768 x3 Gen.shapeCasts_S768x768_S768x768 (ix2 r k))
        (fun c => shapeCast S256x1 x4 Gen.shapeCasts_S256x1_S256x1 (ix2 c (0 : Fin 1))) _ co p + _) 0 = _
  simp only [shapeCast_self]
  rfl

end Cert.KernelIdeal.Body

end
-- ==== Proof.RBodyWords.lean ====
/-
  The image row, the image column and a 3x3 tap's in-image bit, as functions of one 32-bit position word.

  The 1024 positions of a 32x32 image are numbered row-major.  The row is the floor quotient of the position by 32,
  spelt as a truncating signed division corrected by one where the operands' signs differ and the remainder is not
  zero; the column is the position minus 32 times the row; tap (dh, dw), dh and dw among -1, 0, 1, reads inside the
  image where 0 <= row + dh <= 31 and 0 <= col + dw <= 31, by signed comparisons.  Each of these word functions is
  checked, over the 1024 position values, against the natural-number quotient, remainder and the condition
  1 <= row + kh <= 32 and 1 <= col + kw <= 32 with kh = dh + 1, kw = dw + 1.
-/
import Idealize.ShloMosaic.PureOps.Ideal

namespace Cert.ReferenceIdeal.Body

open Idealize.ShloMosaic

/-! ## The row, the column and a tap's bit, as functions of the position's word -/

/-- The floor quotient by 32 of a word: the truncating quotient, one less where the operands' signs differ and the
    remainder is not zero. -/
def rowW (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- The column: the position minus 32 times its row. -/
def colW (x : BitVec 32) : BitVec 32 := IntOp.subi x (IntOp.muli (rowW x) 32#32)

/-- Tap (dh, dw) reads inside the image at row r, column c: both shifted coordinates lie in 0…31, signed. -/
def tapBit (dh dw r c : BitVec 32) : BitVec 1 :=
  IntOp.andi
    (IntOp.andi (IntOp.cmpi .sge (IntOp.addi r dh) 0#32) (IntOp.cmpi .sle (IntOp.addi r dh) 31#32))
    (IntOp.andi (IntOp.cmpi .sge (IntOp.addi c dw) 0#32) (IntOp.cmpi .sle (IntOp.addi c dw) 31#32))

/-- The tap's bit at a position, widened to a word. -/
def tapWord (dh dw x : BitVec 32) : BitVec 32 := (tapBit dh dw (rowW x) (colW x)).setWidth 32

/-! ## Checked over the 1024 positions -/

theorem rowW_ofNat : ∀ p : Fin 1024, rowW (BitVec.ofNat 32 p.val) = BitVec.ofNat 32 (p.val / 32) := by
  decide +kernel

theorem colW_ofNat : ∀ p : Fin 1024, colW (BitVec.ofNat 32 p.val) = BitVec.ofNat 32 (p.val % 32) := by
  decide +kernel

/-- A tap's word at each position: 1 where the tap reads inside the image, else 0 (dh, dw the words of -1, 0, 1). -/
theorem tapWord_00 : ∀ p : Fin 1024, tapWord 4294967295#32 4294967295#32 (BitVec.ofNat 32 p.val)
    = if (1 ≤ p.val / 32 + 0 ∧ p.val / 32 + 0 ≤ 32) ∧ (1 ≤ p.val % 32 + 0 ∧ p.val % 32 + 0 ≤ 32) then 1#32 else 0#32 := by
  decide +kernel

theorem tapWord_01 : ∀ p : Fin 1024, tapWord 4294967295#32 0#32 (BitVec.ofNat 32 p.val)
    = if (1 ≤ p.val / 32 + 0 ∧ p.val / 32 + 0 ≤ 32) ∧ (1 ≤ p.val % 32 + 1 ∧ p.val % 32 + 1 ≤ 32) then 1#32 else 0#32 := by
  decide +kernel

theorem tapWord_02 : ∀ p : Fin 1024, tapWord 4294967295#32 1#32 (BitVec.ofNat 32 p.val)
    = if (1 ≤ p.val / 32 + 0 ∧ p.val / 32 + 0 ≤ 32) ∧ (1 ≤ p.val % 32 + 2 ∧ p.val % 32 + 2 ≤ 32) then 1#32 else 0#32 := by
  decide +kernel

theorem tapWord_10 : ∀ p : Fin 1024, tapWord 0#32 4294967295#32 (BitVec.ofNat 32 p.val)
    = if (1 ≤ p.val / 32 + 1 ∧ p.val / 32 + 1 ≤ 32) ∧ (1 ≤ p.val % 32 + 0 ∧ p.val % 32 + 0 ≤ 32) then 1#32 else 0#32 := by
  decide +kernel

theorem tapWord_12 : ∀ p : Fin 1024, tapWord 0#32 1#32 (BitVec.ofNat 32 p.val)
    = if (1 ≤ p.val / 32 + 1 ∧ p.val / 32 + 1 ≤ 32) ∧ (1 ≤ p.val % 32 + 2 ∧ p.val % 32 + 2 ≤ 32) then 1#32 else 0#32 := by
  decide +kernel

theorem tapWord_20 : ∀ p : Fin 1024, tapWord 1#32 4294967295#32 (BitVec.ofNat 32 p.val)
    = if (1 ≤ p.val / 32 + 2 ∧ p.val / 32 + 2 ≤ 32) ∧ (1 ≤ p.val % 32 + 0 ∧ p.val % 32 + 0 ≤ 32) then 1#32 else 0#32 := by
  decide +kernel

theorem tapWord_21 : ∀ p : Fin 1024, tapWord 1#32 0#32 (BitVec.ofNat 32 p.val)
    = if (1 ≤ p.val / 32 + 2 ∧ p.val / 32 + 2 ≤ 32) ∧ (1 ≤ p.val % 32 + 1 ∧ p.val % 32 + 1 ≤ 32) then 1#32 else 0#32 := by
  decide +kernel

theorem tapWord_22 : ∀ p : Fin 1024, tapWord 1#32 1#32 (BitVec.ofNat 32 p.val)
    = if (1 ≤ p.val / 32 + 2 ∧ p.val / 32 + 2 ≤ 32) ∧ (1 ≤ p.val % 32 + 2 ∧ p.val % 32 + 2 ≤ 32) then 1#32 else 0#32 := by
  decide +kernel

end Cert.ReferenceIdeal.Body
-- ==== Proof.RBodyMask.lean ====
/-
  The eight boundary masks of the 3x3 convolution, read at a position.

  The body counts the positions along the second axis of a [256, 1024] vector, computes the image row and column of
  each position from that counter, and for each off-centre tap forms the in-image bit, widens it to a word and
  converts it to a float.  Read at (channel, position), the counter is the position's word, the row and column
  vectors are the word functions of it, and the mask is the conversion of the tap's word, which is 1 or 0 as the tap
  reads inside the image or not; the signed conversion of the words 1 and 0 gives the reals 1 and 0.
-/
import proofs.«157068_g2000402456168593_pallasbulk_172_2_alg».proof.Proof.Gen.ReferenceIdeal.Skeleton
import proofs.«157068_g2000402456168593_pallasbulk_172_2_alg».proof.Proof.Spec
import proofs.«157068_g2000402456168593_pallasbulk_172_2_alg».proof.Proof.RBodyWords
import Idealize.ShloMosaic.Lib.ValueIdx
import Idealize.ShloMosaic.Lib.Pipeline.Value

noncomputable section

namespace Cert.ReferenceIdeal.Body

open Idealize.ShloMosaic Idealize.ShloMosaic.ValueIdx
open Cert.ReferenceIdeal Cert.ReferenceIdeal.Facts₀ Cert.ResBlock

/-! ## From words to the float masks -/

/-- The signed conversion of the word 1 or 0 is the real 1 or 0. -/
theorem sitofp_ite (c : Prop) [Decidable c] :
    (FloatOps.sitofp .f32 (if c then 1#32 else 0#32 : BitVec 32) : Ideal .f32) = ind c := by
  unfold ind
  split_ifs
  · show ((((1#32 : BitVec 32).toInt : ℝ)) : EReal) = 1
    norm_num
  · show ((((0#32 : BitVec 32).toInt : ℝ)) : EReal) = 0
    norm_num

/-- Two equivalent conditions have the same 0/1 value, whatever decides them. -/
theorem ind_congr {a b : Prop} [Decidable a] [Decidable b] (h : a ↔ b) : ind a = ind b := by
  unfold ind
  by_cases ha : a
  · rw [if_pos ha, if_pos (h.mp ha)]
  · rw [if_neg ha, if_neg (fun hb => ha (h.mpr hb))]

/-- The position counter at (channel, position) is the position's word. -/
theorem iota_apply (co : Fin 256) (p : Fin 1024) :
    iota .tc S256x1024 32 [1] iota_S256x1024_d1_w32 (ix2 co p) = BitVec.ofNat 32 p.val :=
  iota_single_apply .tc S256x1024 32 1 iota_S256x1024_d1_w32 (ix2 co p)

/-- The body's row vector at (channel, position). -/
theorem row_apply (co : Fin 256) (p : Fin 1024) : Gen.k0_pay2 (ix2 co p) = rowW (BitVec.ofNat 32 p.val) := by
  show rowW (iota .tc S256x1024 32 [1] iota_S256x1024_d1_w32 (ix2 co p)) = _
  rw [iota_apply]

/-- The body's column vector at (channel, position). -/
theorem col_apply (co : Fin 256) (p : Fin 1024) : Gen.k0_pay3 (ix2 co p) = colW (BitVec.ofNat 32 p.val) := by
  show colW (iota .tc S256x1024 32 [1] iota_S256x1024_d1_w32 (ix2 co p)) = _
  rw [iota_apply]

/-! ## The eight masks -/

/-- The mask of tap (0, 0), as the body computes it. -/
def M0 : FVec Ideal S256x1024 .f32 := Gen.k0_pay7 (F := Ideal) Gen.k0_pay4 Gen.k0_pay5 Gen.k0_pay6 31#32

/-- It is 1 where tap (0, 0) reads inside the image and 0 elsewhere, on every channel. -/
theorem M0_apply (co : Fin 256) (p : Fin 1024) : M0 (ix2 co p) = ind (ok 0 0 p) := by
  show (FloatOps.sitofp .f32 ((tapBit 4294967295#32 4294967295#32 (Gen.k0_pay2 (ix2 co p)) (Gen.k0_pay3 (ix2 co p))).setWidth 32) : Ideal .f32) = _
  rw [row_apply, col_apply]
  show (FloatOps.sitofp .f32 (tapWord 4294967295#32 4294967295#32 (BitVec.ofNat 32 p.val)) : Ideal .f32) = _
  rw [tapWord_00 p]
  exact (sitofp_ite _).trans (ind_congr Iff.rfl)

/-- The mask of tap (0, 1), as the body computes it. -/
def M1 : FVec Ideal S256x1024 .f32 := Gen.k0_pay8 (F := Ideal) Gen.k0_pay2 Gen.k0_pay3

/-- It is 1 where tap (0, 1) reads inside the image and 0 elsewhere, on every channel. -/
theorem M1_apply (co : Fin 256) (p : Fin 1024) : M1 (ix2 co p) = ind (ok 0 1 p) := by
  show (FloatOps.sitofp .f32 ((tapBit 4294967295#32 0#32 (Gen.k0_pay2 (ix2 co p)) (Gen.k0_pay3 (ix2 co p))).setWidth 32) : Ideal .f32) = _
  rw [row_apply, col_apply]
  show (FloatOps.sitofp .f32 (tapWord 4294967295#32 0#32 (BitVec.ofNat 32 p.val)) : Ideal .f32) = _
  rw [tapWord_01 p]
  exact (sitofp_ite _).trans (ind_congr Iff.rfl)

/-- The mask of tap (0, 2), as the body computes it. -/
def M2 : FVec Ideal S256x1024 .f32 := Gen.k0_pay12 (F := Ideal) (Gen.k0_pay9 Gen.k0_pay2) (Gen.k0_pay10 Gen.k0_pay3) (Gen.k0_pay11 Gen.k0_pay3)

/-- It is 1 where tap (0, 2) reads inside the image and 0 elsewhere, on every channel. -/
theorem M2_apply (co : Fin 256) (p : Fin 1024) : M2 (ix2 co p) = ind (ok 0 2 p) := by
  show (FloatOps.sitofp .f32 ((tapBit 4294967295#32 1#32 (Gen.k0_pay2 (ix2 co p)) (Gen.k0_pay3 (ix2 co p))).setWidth 32) : Ideal .f32) = _
  rw [row_apply, col_apply]
  show (FloatOps.sitofp .f32 (tapWord 4294967295#32 1#32 (BitVec.ofNat 32 p.val)) : Ideal .f32) = _
  rw [tapWord_02 p]
  exact (sitofp_ite _).trans (ind_congr Iff.rfl)

/-- The mask of tap (1, 0), as the body computes it. -/
def M3 : FVec Ideal S256x1024 .f32 := Gen.k0_pay13 (F := Ideal) Gen.k0_pay2 Gen.k0_pay3

/-- It is 1 where tap (1, 0) reads inside the image and 0 elsewhere, on every channel. -/
theorem M3_apply (co : Fin 256) (p : Fin 1024) : M3 (ix2 co p) = ind (ok 1 0 p) := by
  show (FloatOps.sitofp .f32 ((tapBit 0#32 4294967295#32 (Gen.k0_pay2 (ix2 co p)) (Gen.k0_pay3 (ix2 co p))).setWidth 32) : Ideal .f32) = _
  rw [row_apply, col_apply]
  show (FloatOps.sitofp .f32 (tapWord 0#32 4294967295#32 (BitVec.ofNat 32 p.val)) : Ideal .f32) = _
  rw [tapWord_10 p]
  exact (sitofp_ite _).trans (ind_congr Iff.rfl)

/-- The mask of tap (1, 2), as the body computes it. -/
def M5 : FVec Ideal S256x1024 .f32 := Gen.k0_pay15 (F := Ideal) (Gen.k0_pay14 Gen.k0_pay2 Gen.k0_pay3)

/-- It is 1 where tap (1, 2) reads inside the image and 0 elsewhere, on every channel. -/
theorem M5_apply (co : Fin 256) (p : Fin 1024) : M5 (ix2 co p) = ind (ok 1 2 p) := by
  show (FloatOps.sitofp .f32 ((tapBit 0#32 1#32 (Gen.k0_pay2 (ix2 co p)) (Gen.k0_pay3 (ix2 co p))).setWidth 32) : Ideal .f32) = _
  rw [row_apply, col_apply]
  show (FloatOps.sitofp .f32 (tapWord 0#32 1#32 (BitVec.ofNat 32 p.val)) : Ideal .f32) = _
  rw [tapWord_12 p]
  exact (sitofp_ite _).trans (ind_congr Iff.rfl)

/-- The mask of tap (2, 0), as the body computes it. -/
def M6 : FVec Ideal S256x1024 .f32 := Gen.k0_pay16 (F := Ideal) Gen.k0_pay2 Gen.k0_pay3

/-- It is 1 where tap (2, 0) reads inside the image and 0 elsewhere, on every channel. -/
theorem M6_apply (co : Fin 256) (p : Fin 1024) : M6 (ix2 co p) = ind (ok 2 0 p) := by
  show (FloatOps.sitofp .f32 ((tapBit 1#32 4294967295#32 (Gen.k0_pay2 (ix2 co p)) (Gen.k0_pay3 (ix2 co p))).setWidth 32) : Ideal .f32) = _
  rw [row_apply, col_apply]
  show (FloatOps.sitofp .f32 (tapWord 1#32 4294967295#32 (BitVec.ofNat 32 p.val)) : Ideal .f32) = _
  rw [tapWord_20 p]
  exact (sitofp_ite _).trans (ind_congr Iff.rfl)

/-- The mask of tap (2, 1), as the body computes it. -/
def M7 : FVec Ideal S256x1024 .f32 := Gen.k0_pay17 (F := Ideal) Gen.k0_pay2 Gen.k0_pay3

/-- It is 1 where tap (2, 1) reads inside the image and 0 elsewhere, on every channel. -/
theorem M7_apply (co : Fin 256) (p : Fin 1024) : M7 (ix2 co p) = ind (ok 2 1 p) := by
  show (FloatOps.sitofp .f32 ((tapBit 1#32 0#32 (Gen.k0_pay2 (ix2 co p)) (Gen.k0_pay3 (ix2 co p))).setWidth 32) : Ideal .f32) = _
  rw [row_apply, col_apply]
  show (FloatOps.sitofp .f32 (tapWord 1#32 0#32 (BitVec.ofNat 32 p.val)) : Ideal .f32) = _
  rw [tapWord_21 p]
  exact (sitofp_ite _).trans (ind_congr Iff.rfl)

/-- The mask of tap (2, 2), as the body computes it. -/
def M8 : FVec Ideal S256x1024 .f32 := Gen.k0_pay18 (F := Ideal) Gen.k0_pay2 Gen.k0_pay3

/-- It is 1 where tap (2, 2) reads inside the image and 0 elsewhere, on every channel. -/
theorem M8_apply (co : Fin 256) (p : Fin 1024) : M8 (ix2 co p) = ind (ok 2 2 p) := by
  show (FloatOps.sitofp .f32 ((tapBit 1#32 1#32 (Gen.k0_pay2 (ix2 co p)) (Gen.k0_pay3 (ix2 co p))).setWidth 32) : Ideal .f32) = _
  rw [row_apply, col_apply]
  show (FloatOps.sitofp .f32 (tapWord 1#32 1#32 (BitVec.ofNat 32 p.val)) : Ideal .f32) = _
  rw [tapWord_22 p]
  exact (sitofp_ite _).trans (ind_congr Iff.rfl)

end Cert.ReferenceIdeal.Body

end
-- ==== Proof.RBodyStack.lean ====
/-
  The nine shifted, masked copies of an image, stacked to 2304 rows, read at (row, position).

  A rotation of the 1024 positions by s, read at p, is the operand at the position s places back, around the end.
  The stack is the concatenation, along the rows, of nine [256, 1024] pieces: for tap t = 3 kh + kw other than the
  centre, the image rotated by 1057 - 32 kh - kw times the tap's mask (a rotation depends on its amount only modulo
  1024, so the amounts 1057, 1056, 1055, 1025 of the first four taps are the rotations by 33, 32, 31, 1); for the centre, the image
  itself.  Row k of the stack lies in piece k / 256, at that piece's row k % 256; reading each piece there, and the
  mask at the position, gives exactly the specification's stack.
-/
import proofs.«157068_g2000402456168593_pallasbulk_172_2_alg».proof.Proof.RBodyMask
import Idealize.ShloMosaic.Lib.KernelVsHost

noncomputable section

namespace Cert.ReferenceIdeal.Body

open Idealize.ShloMosaic Idealize.ShloMosaic.ValueIdx
open Cert.ReferenceIdeal Cert.ReferenceIdeal.Facts₀ Cert.ResBlock

/-- A rotation along the positions, read at (channel, position): the operand at the position that many places back. -/
theorem rot_apply (sb : BitVec 32) (X : FVec Ideal S256x1024 .f32) (c : Fin 256) (p : Fin 1024) :
    dynamicRotate 1 sb none X rotates_S256x1024_d1 (ix2 c p) = X (ix2 c (rot sb.toNat p)) :=
  dynamicRotate_apply 1 sb X rotates_S256x1024_d1 (ix2 c p) (ix2 c (rot sb.toNat p)) (fun b => by
    match b with
    | ⟨0, _⟩ => rfl
    | ⟨1, _⟩ => rfl)

/-- The nine shifted, masked copies of an image, stacked, as the body forms them. -/
def stackV (X : FVec Ideal S256x1024 .f32) : FVec Ideal S2304x1024 .f32 :=
  concatenate S2304x1024 0
    [⟨S256x1024, mulf (dynamicRotate 1 33#32 none X rotates_S256x1024_d1) M0⟩,
     ⟨S256x1024, mulf (dynamicRotate 1 32#32 none X rotates_S256x1024_d1) M1⟩,
     ⟨S256x1024, mulf (dynamicRotate 1 31#32 none X rotates_S256x1024_d1) M2⟩,
     ⟨S256x1024, mulf (dynamicRotate 1 1#32 none X rotates_S256x1024_d1) M3⟩,
     ⟨S256x1024, X⟩,
     ⟨S256x1024, mulf (dynamicRotate 1 1023#32 none X rotates_S256x1024_d1) M5⟩,
     ⟨S256x1024, mulf (dynamicRotate 1 993#32 none X rotates_S256x1024_d1) M6⟩,
     ⟨S256x1024, mulf (dynamicRotate 1 992#32 none X rotates_S256x1024_d1) M7⟩,
     ⟨S256x1024, mulf (dynamicRotate 1 991#32 none X rotates_S256x1024_d1) M8⟩]
    concatenates_S256x1024_S256x1024_S256x1024_S256x1024_S256x1024_S256x1024_S256x1024_S256x1024_S256x1024_S2304x1024_d0

/-! ## Each piece of the stack -/

/-- Rows 0…255 of the stack: the image 33 positions back, times the mask of tap (0, 0). -/
theorem stackV_piece0 (X : FVec Ideal S256x1024 .f32) (k : Fin 2304) (c : Fin 256) (p : Fin 1024)
    (hk : k.val = 256 * 0 + c.val) : stackV X (ix2 k p) = X (ix2 c (rot 33 p)) * ind (ok 0 0 p) := by
  unfold stackV
  refine (concatenate_apply_piece (t := S2304x1024) 0 _ _ (ix2 k p) 0 (by show (0 : Nat) < 9; decide) S256x1024 _ rfl rfl 0 rfl
    (ix2 c p) ?_ ?_).trans ?_
  · intro b hb
    match b with
    | ⟨0, _⟩ => exact absurd rfl hb
    | ⟨1, _⟩ => rfl
  · show 0 + c.val = k.val
    omega
  · rw [mulf_apply, rot_apply, M0_apply]; rfl

/-- Rows 256…511 of the stack: the image 32 positions back, times the mask of tap (0, 1). -/
theorem stackV_piece1 (X : FVec Ideal S256x1024 .f32) (k : Fin 2304) (c : Fin 256) (p : Fin 1024)
    (hk : k.val = 256 * 1 + c.val) : stackV X (ix2 k p) = X (ix2 c (rot 32 p)) * ind (ok 0 1 p) := by
  unfold stackV
  refine (concatenate_apply_piece (t := S2304x1024) 0 _ _ (ix2 k p) 1 (by show (1 : Nat) < 9; decide) S256x1024 _ rfl rfl 256 rfl
    (ix2 c p) ?_ ?_).trans ?_
  · intro b hb
    match b with
    | ⟨0, _⟩ => exact absurd rfl hb
    | ⟨1, _⟩ => rfl
  · show 256 + c.val = k.val
    omega
  · rw [mulf_apply, rot_apply, M1_apply]; rfl

/-- Rows 512…767 of the stack: the image 31 positions back, times the mask of tap (0, 2). -/
theorem stackV_piece2 (X : FVec Ideal S256x1024 .f32) (k : Fin 2304) (c : Fin 256) (p : Fin 1024)
    (hk : k.val = 256 * 2 + c.val) : stackV X (ix2 k p) = X (ix2 c (rot 31 p)) * ind (ok 0 2 p) := by
  unfold stackV
  refine (concatenate_apply_piece (t := S2304x1024) 0 _ _ (ix2 k p) 2 (by show (2 : Nat) < 9; decide) S256x1024 _ rfl rfl 512 rfl
    (ix2 c p) ?_ ?_).trans ?_
  · intro b hb
    match b with
    | ⟨0, _⟩ => exact absurd rfl hb
    | ⟨1, _⟩ => rfl
  · show 512 + c.val = k.val
    omega
  · rw [mulf_apply, rot_apply, M2_apply]; rfl

/-- Rows 768…1023 of the stack: the image 1 positions back, times the mask of tap (1, 0). -/
theorem stackV_piece3 (X : FVec Ideal S256x1024 .f32) (k : Fin 2304) (c : Fin 256) (p : Fin 1024)
    (hk : k.val = 256 * 3 + c.val) : stackV X (ix2 k p) = X (ix2 c (rot 1 p)) * ind (ok 1 0 p) := by
  unfold stackV
  refine (concatenate_apply_piece (t := S2304x1024) 0 _ _ (ix2 k p) 3 (by show (3 : Nat) < 9; decide) S256x1024 _ rfl rfl 768 rfl
    (ix2 c p) ?_ ?_).trans ?_
  · intro b hb
    match b with
    | ⟨0, _⟩ => exact absurd rfl hb
    | ⟨1, _⟩ => rfl
  · show 768 + c.val = k.val
    omega
  · rw [mulf_apply, rot_apply, M3_apply]; rfl

/-- Rows 1024…1279 of the stack: the image itself. -/
theorem stackV_piece4 (X : FVec Ideal S256x1024 .f32) (k : Fin 2304) (c : Fin 256) (p : Fin 1024)
    (hk : k.val = 256 * 4 + c.val) : stackV X (ix2 k p) = X (ix2 c p) := by
  unfold stackV
  refine (concatenate_apply_piece (t := S2304x1024) 0 _ _ (ix2 k p) 4 (by show (4 : Nat) < 9; decide) S256x1024 _ rfl rfl 1024 rfl
    (ix2 c p) ?_ ?_).trans ?_
  · intro b hb
    match b with
    | ⟨0, _⟩ => exact absurd rfl hb
    | ⟨1, _⟩ => rfl
  · show 1024 + c.val = k.val
    omega
  · rfl

/-- Rows 1280…1535 of the stack: the image 1023 positions back, times the mask of tap (1, 2). -/
theorem stackV_piece5 (X : FVec Ideal S256x1024 .f32) (k : Fin 2304) (c : Fin 256) (p : Fin 1024)
    (hk : k.val = 256 * 5 + c.val) : stackV X (ix2 k p) = X (ix2 c (rot 1023 p)) * ind (ok 1 2 p) := by
  unfold stackV
  refine (concatenate_apply_piece (t := S2304x1024) 0 _ _ (ix2 k p) 5 (by show (5 : Nat) < 9; decide) S256x1024 _ rfl rfl 1280 rfl
    (ix2 c p) ?_ ?_).trans ?_
  · intro b hb
    match b with
    | ⟨0, _⟩ => exact absurd rfl hb
    | ⟨1, _⟩ => rfl
  · show 1280 + c.val = k.val
    omega
  · rw [mulf_apply, rot_apply, M5_apply]; rfl

/-- Rows 1536…1791 of the stack: the image 993 positions back, times the mask of tap (2, 0). -/
theorem stackV_piece6 (X : FVec Ideal S256x1024 .f32) (k : Fin 2304) (c : Fin 256) (p : Fin 1024)
    (hk : k.val = 256 * 6 + c.val) : stackV X (ix2 k p) = X (ix2 c (rot 993 p)) * ind (ok 2 0 p) := by
  unfold stackV
  refine (concatenate_apply_piece (t := S2304x1024) 0 _ _ (ix2 k p) 6 (by show (6 : Nat) < 9; decide) S256x1024 _ rfl rfl 1536 rfl
    (ix2 c p) ?_ ?_).trans ?_
  · intro b hb
    match b with
    | ⟨0, _⟩ => exact absurd rfl hb
    | ⟨1, _⟩ => rfl
  · show 1536 + c.val = k.val
    omega
  · rw [mulf_apply, rot_apply, M6_apply]; rfl

/-- Rows 1792…2047 of the stack: the image 992 positions back, times the mask of tap (2, 1). -/
theorem stackV_piece7 (X : FVec Ideal S256x1024 .f32) (k : Fin 2304) (c : Fin 256) (p : Fin 1024)
    (hk : k.val = 256 * 7 + c.val) : stackV X (ix2 k p) = X (ix2 c (rot 992 p)) * ind (ok 2 1 p) := by
  unfold stackV
  refine (concatenate_apply_piece (t := S2304x1024) 0 _ _ (ix2 k p) 7 (by show (7 : Nat) < 9; decide) S256x1024 _ rfl rfl 1792 rfl
    (ix2 c p) ?_ ?_).trans ?_
  · intro b hb
    match b with
    | ⟨0, _⟩ => exact absurd rfl hb
    | ⟨1, _⟩ => rfl
  · show 1792 + c.val = k.val
    omega
  · rw [mulf_apply, rot_apply, M7_apply]; rfl

/-- Rows 2048…2303 of the stack: the image 991 positions back, times the mask of tap (2, 2). -/
theorem stackV_piece8 (X : FVec Ideal S256x1024 .f32) (k : Fin 2304) (c : Fin 256) (p : Fin 1024)
    (hk : k.val = 256 * 8 + c.val) : stackV X (ix2 k p) = X (ix2 c (rot 991 p)) * ind (ok 2 2 p) := by
  unfold stackV
  refine (concatenate_apply_piece (t := S2304x1024) 0 _ _ (ix2 k p) 8 (by show (8 : Nat) < 9; decide) S256x1024 _ rfl rfl 2048 rfl
    (ix2 c p) ?_ ?_).trans ?_
  · intro b hb
    match b with
    | ⟨0, _⟩ => exact absurd rfl hb
    | ⟨1, _⟩ => rfl
  · show 2048 + c.val = k.val
    omega
  · rw [mulf_apply, rot_apply, M8_apply]; rfl

/-! ## The specification's stack at a row of a known piece -/

/-- Row 256 t + c of the specification's stack, t not the centre: channel c of the image rotated by the tap's amount,
    times the tap's 0/1 value. -/
theorem stackR_tap (X : Img) (k : Fin 2304) (p : Fin 1024) (t kh kw s : Nat) (c : Fin 256)
    (hk : k.val = 256 * t + c.val) (ht : t ≠ 4) (hkh : t / 3 = kh) (hkw : t % 3 = kw) (hs : 1057 - 32 * kh - kw = s) :
    stackR X k p = X c (rot s p) * ind (ok kh kw p) := by
  have hc := c.isLt
  have h1 : k.val / 256 = t := by omega
  have h2 : k.val / 768 = t / 3 := by omega
  have h3 : (⟨k.val % 256, Nat.mod_lt _ (by decide)⟩ : Fin 256) = c := Fin.ext (by show k.val % 256 = c.val; omega)
  unfold stackR
  rw [h3, h1, h2, if_neg ht, hkh, hkw, hs]

/-- Row 1024 + c of the specification's stack: channel c of the image. -/
theorem stackR_centre (X : Img) (k : Fin 2304) (p : Fin 1024) (c : Fin 256) (hk : k.val = 256 * 4 + c.val) :
    stackR X k p = X c p := by
  have hc := c.isLt
  have h1 : k.val / 256 = 4 := by omega
  have h3 : (⟨k.val % 256, Nat.mod_lt _ (by decide)⟩ : Fin 256) = c := Fin.ext (by show k.val % 256 = c.val; omega)
  unfold stackR
  rw [h3, if_pos h1]

/-! ## The whole stack -/

/-- The body's stack of an image is the specification's, row by row and position by position. -/
theorem stackV_apply (X : FVec Ideal S256x1024 .f32) (k : Fin 2304) (p : Fin 1024) :
    stackV X (ix2 k p) = stackR (fun c q => X (ix2 c q)) k p := by
  obtain ⟨t, ht, c, hkv⟩ : ∃ t, t < 9 ∧ ∃ c : Fin 256, k.val = 256 * t + c.val :=
    ⟨k.val / 256, by have := k.isLt; omega, ⟨k.val % 256, Nat.mod_lt _ (by decide)⟩, by
      show k.val = 256 * (k.val / 256) + k.val % 256
      omega⟩
  interval_cases t
  · rw [stackR_tap _ k p 0 0 0 1057 c hkv (by decide) (by omega) (by omega) (by omega)]
    exact stackV_piece0 X k c p hkv
  · rw [stackR_tap _ k p 1 0 1 1056 c hkv (by decide) (by omega) (by omega) (by omega)]
    exact stackV_piece1 X k c p hkv
  · rw [stackR_tap _ k p 2 0 2 1055 c hkv (by decide) (by omega) (by omega) (by omega)]
    exact stackV_piece2 X k c p hkv
  · rw [stackR_tap _ k p 3 1 0 1025 c hkv (by decide) (by omega) (by omega) (by omega)]
    exact stackV_piece3 X k c p hkv
  · rw [stackR_centre _ k p c hkv]
    exact stackV_piece4 X k c p hkv
  · rw [stackR_tap _ k p 5 1 2 1023 c hkv (by decide) (by omega) (by omega) (by omega)]
    exact stackV_piece5 X k c p hkv
  · rw [stackR_tap _ k p 6 2 0 993 c hkv (by decide) (by omega) (by omega) (by omega)]
    exact stackV_piece6 X k c p hkv
  · rw [stackR_tap _ k p 7 2 1 992 c hkv (by decide) (by omega) (by omega) (by omega)]
    exact stackV_piece7 X k c p hkv
  · rw [stackR_tap _ k p 8 2 2 991 c hkv (by decide) (by omega) (by omega) (by omega)]
    exact stackV_piece8 X k c p hkv

end Cert.ReferenceIdeal.Body

end
-- ==== Proof.RBody.lean ====
/-
  The residual block's body, read at (channel, position), is the specification's nine-taps-in-one-product block.

  One convolution stage is a product of the 256 x 2304 weight matrix with the stack of the nine shifted, masked
  copies of the image, accumulated into zero, plus the bias column repeated along the positions: at (co, p) the sum
  over the 2304 stacked rows of weight times stack, plus the bias of co.  The body applies one stage to the image and
  clamps below at 0, applies a second stage to that, adds the image and clamps again.  The image block carries a
  leading axis of extent 1, dropped on the way in and restored on the way out; row-major order is unchanged by it.
  What the body leaves in the output block is the payload of its one whole-block store.
-/
import proofs.«157068_g2000402456168593_pallasbulk_172_2_alg».proof.Proof.Gen.ReferenceIdeal.Frame
import proofs.«157068_g2000402456168593_pallasbulk_172_2_alg».proof.Proof.Spec
import proofs.«157068_g2000402456168593_pallasbulk_172_2_alg».proof.Proof.RBodyStack
import proofs.«157068_g2000402456168593_pallasbulk_172_2_alg».proof.Proof.LibPlainMatmul
import Idealize.ShloMosaic.Lib.Pipeline.Value
import Idealize.ShloMosaic.PureOps.Ideal.Laws

noncomputable section

namespace Cert.ReferenceIdeal.Body

open Idealize.ShloMosaic Idealize.ShloMosaic.ValueIdx
open Cert.ReferenceIdeal Cert.ReferenceIdeal.Facts₀ Cert.ResBlock

/-! ## One convolution stage -/

/-- One convolution stage as the body computes it: the product with the stack into zero, plus the bias column. -/
def convV (A : FVec Ideal S256x2304 .f32) (B : FVec Ideal S256x1 .f32) (X : FVec Ideal S256x1024 .f32) :
    FVec Ideal S256x1024 .f32 :=
  addf (matmul dot_S256x2304_S2304x1024_S256x1024_1_0_0_1_n_n none A (stackV X) (constant (F := Ideal) S256x1024 .f32 0x00000000#32))
    (broadcastTo S256x1024 B broadcasts_S256x1_S256x1024)

/-- The bias column repeated along the positions, at (co, p): the bias of co. -/
theorem bias_apply (B : FVec Ideal S256x1 .f32) (co : Fin 256) (p : Fin 1024) :
    broadcastTo S256x1024 B broadcasts_S256x1_S256x1024 (ix2 co p) = B (ix2 co (0 : Fin 1)) :=
  broadcastTo_apply B broadcasts_S256x1_S256x1024 (ix2 co p) (ix2 co (0 : Fin 1)) (fun a => by
    match a with
    | ⟨0, _⟩ => rfl
    | ⟨1, _⟩ => rfl)

/-- A stage at (co, p) is the specification's convolution. -/
theorem convV_apply (A : FVec Ideal S256x2304 .f32) (B : FVec Ideal S256x1 .f32) (X : FVec Ideal S256x1024 .f32)
    (co : Fin 256) (p : Fin 1024) :
    convV A B X (ix2 co p)
      = convR (fun c k => A (ix2 c k)) (fun c => B (ix2 c (0 : Fin 1))) (fun c q => X (ix2 c q)) co p := by
  unfold convV convR prodR
  rw [addf_apply, bias_apply]
  refine congrArg (· + B (ix2 co (0 : Fin 1))) ?_
  refine (Cert.PointConv.plainMatmul_zero_apply (R := 256) (n := 2304) (k := 1024)
    dot_S256x2304_S2304x1024_S256x1024_1_0_0_1_n_n_wf none A (stackV X) co p).trans ?_
  exact Finset.sum_congr rfl fun k _ => by rw [stackV_apply]

/-! ## The two stages -/

/-- The clamp below at 0, at (c, q). -/
theorem relu_apply (Y : FVec Ideal S256x1024 .f32) (c : Fin 256) (q : Fin 1024) :
    maximumf Y (broadcast S256x1024 (Scalar.ofBits (F := Ideal) .f32 0x00000000#32)) (ix2 c q) = max (Y (ix2 c q)) 0 := by
  rw [maximumf_apply, broadcast_apply]
  exact congrArg (max (Y (ix2 c q))) Ideal.ofBits_zero_f32

/-- The body's arithmetic on the image: a stage, the clamp, a second stage, plus the image, the clamp. -/
def blockV (A1 : FVec Ideal S256x2304 .f32) (B1 : FVec Ideal S256x1 .f32) (A2 : FVec Ideal S256x2304 .f32)
    (B2 : FVec Ideal S256x1 .f32) (X : FVec Ideal S256x1024 .f32) : FVec Ideal S256x1024 .f32 :=
  maximumf (addf (convV A2 B2 (maximumf (convV A1 B1 X) (broadcast S256x1024 (Scalar.ofBits (F := Ideal) .f32 0x00000000#32)))) X) (broadcast S256x1024 (Scalar.ofBits (F := Ideal) .f32 0x00000000#32))

/-- It is the specification's block at every (co, p). -/
theorem blockV_apply (A1 : FVec Ideal S256x2304 .f32) (B1 : FVec Ideal S256x1 .f32) (A2 : FVec Ideal S256x2304 .f32)
    (B2 : FVec Ideal S256x1 .f32) (X : FVec Ideal S256x1024 .f32) (co : Fin 256) (p : Fin 1024) :
    blockV A1 B1 A2 B2 X (ix2 co p)
      = blockR (fun c k => A1 (ix2 c k)) (fun c => B1 (ix2 c (0 : Fin 1))) (fun c k => A2 (ix2 c k))
          (fun c => B2 (ix2 c (0 : Fin 1))) (fun c q => X (ix2 c q)) co p := by
  have h : (fun (c : Fin 256) (q : Fin 1024) => maximumf (convV A1 B1 X) (broadcast S256x1024 (Scalar.ofBits (F := Ideal) .f32 0x00000000#32)) (ix2 c q))
      = fun c q => max (convR (fun c k => A1 (ix2 c k)) (fun c => B1 (ix2 c (0 : Fin 1))) (fun c q => X (ix2 c q)) c q) 0 :=
    funext fun c => funext fun q => by rw [relu_apply, convV_apply]
  unfold blockV blockR
  rw [relu_apply, addf_apply, convV_apply, h]

/-- The body's last payload is that arithmetic on the image block without its leading axis. -/
theorem pay27_eq (A1 : FVec Ideal S256x2304 .f32) (A2 : FVec Ideal S256x2304 .f32) (B1 : FVec Ideal S256x1 .f32)
    (B2 : FVec Ideal S256x1 .f32) (x0 : Vec Ideal S1x256x1024 .f32) :
    Gen.k0_pay27 (F := Ideal) M0 M1 M2 M3 M5 M6 M7 M8 A1 A2 B1 B2 (Gen.k0_pay23 x0) (Gen.k0_pay24 M0 x0)
        (Gen.k0_pay25 M1 x0) (Gen.k0_pay26 M2 x0) 1#32
      = blockV A1 B1 A2 B2 (Gen.k0_pay23 x0) := rfl

/-! ## The leading unit axis -/

/-- The image block without its leading axis, at (c, q). -/
theorem image_apply (x0 : Vec Ideal S1x256x1024 .f32) (c : Fin 256) (q : Fin 1024) :
    Gen.k0_pay23 (F := Ideal) x0 (ix2 c q) = x0 (ix3 (0 : Fin 1) c q) :=
  shapeCast_apply x0 shapeCasts_S1x256x1024_S256x1024 (ix2 c q) (ix3 (0 : Fin 1) c q) (by
    rw [Shape.rowMajor_val_three, Shape.rowMajor_val_two]
    show ((0 : Nat) * 256 + c.val) * 1024 + q.val = c.val * 1024 + q.val
    omega)

/-- The result with the leading axis restored, at (0, co, p). -/
theorem result_apply (v : FVec Ideal S256x1024 .f32) (co : Fin 256) (p : Fin 1024) :
    Gen.k0_pay1 (F := Ideal) v (ix3 (0 : Fin 1) co p) = v (ix2 co p) :=
  shapeCast_apply v shapeCasts_S256x1024_S1x256x1024 (ix3 (0 : Fin 1) co p) (ix2 co p) (by
    rw [Shape.rowMajor_val_three, Shape.rowMajor_val_two]
    show co.val * 1024 + p.val = ((0 : Nat) * 256 + co.val) * 1024 + p.val
    omega)

/-! ## What the body leaves in the output block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The output block after the body, at (0, co, p): the specification's block of the weight matrices, the bias
    columns and the image. -/
theorem out_apply (x0 : Vec Ideal S1x256x1024 .f32) (x1 : Vec Ideal S256x2304 .f32) (x2 : Vec Ideal S256x1 .f32)
    (x3 : Vec Ideal S256x2304 .f32) (x4 : Vec Ideal S256x1 .f32) (co : Fin 256) (p : Fin 1024) :
    Cert.ReferenceIdeal.Gen.out0_5 (F := Ideal) x0 x1 x2 x3 x4 (ix3 (0 : Fin 1) co p)
      = Cert.ResBlock.blockR (fun c k => x1 (ix2 c k)) (fun c => x2 (ix2 c (0 : Fin 1))) (fun c k => x3 (ix2 c k))
          (fun c => x4 (ix2 c (0 : Fin 1))) (fun c q => x0 (ix3 (0 : Fin 1) c q)) co p := by
  have e : Gen.out0_5 (F := Ideal) x0 x1 x2 x3 x4
      = Gen.k0_pay1 (F := Ideal) (blockV x1 x2 x3 x4 (Gen.k0_pay23 x0)) := by
    unfold Gen.out0_5
    rw [View.canon_unit_zero (S := S1x256x1024) zeros3]
    simp only [View.ld_unit_zero (S := S1x256x1024) zeros3, View.ld_unit_zero (S := S256x2304) zeros2,
      View.ld_unit_zero (S := S256x1) zeros2]
    simp only [Gen.k0_pay19, Gen.k0_pay20, Gen.k0_pay21, Gen.k0_pay22, shapeCast_self]
    exact congrArg (Gen.k0_pay1 (F := Ideal)) (pay27_eq x1 x3 x2 x4 x0)
  have hX : (fun (c : Fin 256) (q : Fin 1024) => Gen.k0_pay23 (F := Ideal) x0 (ix2 c q))
      = fun c q => x0 (ix3 (0 : Fin 1) c q) := funext fun c => funext fun q => image_apply x0 c q
  rw [e, result_apply, blockV_apply, hX]

end Cert.ReferenceIdeal.Body

end
-- ==== Proof.lean ====
/-
  The certificate of a fused residual block  out = relu(conv3x3(relu(conv3x3(x) + b1)) + b2 + x)  (SAME padding, 256
  channels, a batch of 32 images of 32 x 32) against a reference that is a fused kernel of its own.

  Both programs flatten an image to 256 channels by 1024 positions and run one grid point per image.  The reference
  builds, per convolution, the nine shifted copies of the image (a rotation of the positions, the entries that wrapped
  around cleared by a 0/1 mask), stacks them to 2304 rows and multiplies once by a 256 x 2304 weight matrix.  The
  kernel factors the convolution by kernel column: it stacks only the three ROW-shifted copies (768 rows), multiplies
  once by a 768 x 768 matrix whose three row bands are the three kernel columns, and shifts and masks the left and right
  bands AFTER the product.  On extended reals the narrowing to bf16 is the identity, a mask is 0 or 1, and
  (Σ a) * 1 = Σ a, (Σ a) * 0 = 0 = Σ (a * 0), so the two are equal with no finiteness needed (ConvLaw).

  Modules: Spec (the two forms of the block as functions on index types), ConvLaw (they are one function), HostForms
  (the reshapes and transposes around the kernels read at an index), KBody* / RBody* (each kernel body read at an
  index is its form of the block), KWhole / RWhole (each program's result array is its form of the block applied image
  by image to the argument arrays), and the claims below.
-/
import proofs.«157068_g2000402456168593_pallasbulk_172_2_alg».proof.Defs
import proofs.«157068_g2000402456168593_pallasbulk_172_2_alg».proof.Proof.Gen.Kernel
import proofs.«157068_g2000402456168593_pallasbulk_172_2_alg».proof.Proof.Gen.Kernel.Frame
import proofs.«157068_g2000402456168593_pallasbulk_172_2_alg».proof.Proof.Gen.KernelIdeal
import proofs.«157068_g2000402456168593_pallasbulk_172_2_alg».proof.Proof.Gen.KernelIdeal.Frame
import proofs.«157068_g2000402456168593_pallasbulk_172_2_alg».proof.Proof.Gen.ReferenceIdeal
import proofs.«157068_g2000402456168593_pallasbulk_172_2_alg».proof.Proof.Gen.ReferenceIdeal.Frame
import proofs.«157068_g2000402456168593_pallasbulk_172_2_alg».proof.Proof.Gen.Pre_finite_inputs
import proofs.«157068_g2000402456168593_pallasbulk_172_2_alg».proof.Proof.KWhole
import proofs.«157068_g2000402456168593_pallasbulk_172_2_alg».proof.Proof.RWhole
import proofs.«157068_g2000402456168593_pallasbulk_172_2_alg».proof.Proof.ConvLaw
import proofs.«157068_g2000402456168593_pallasbulk_172_2_alg».proof.Proof.KBody
import proofs.«157068_g2000402456168593_pallasbulk_172_2_alg».proof.Proof.RBody
import Idealize.ShloMosaic.Adequacy
import Idealize.ShloMosaic.Init

noncomputable section

namespace Cert.Proof

open Idealize.ShloMosaic Idealize.SL.Sem

/-- The three frames are the generated ones (each program is one kernel launch between host lines). -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing. -/
theorem preserves : Cert.preserves_Kernel_KernelIdeal := trivial

/-- On extended reals the kernel's result is the residual block with each convolution factored by kernel column, the
    reference's the residual block with nine taps in one product, of the same arguments: one function. -/
theorem algebraic : Cert.algebraic_KernelIdeal_ReferenceIdeal := by
  intro m ρ m' ρ' _ hagree
  refine ⟨_, Cert.KernelIdeal.Whole.run m ρ Cert.KernelIdeal.Body.out_apply, ?_⟩
  refine (θ_run Cert.ReferenceIdeal.defs _ _).mono (fun _ h c => ⟨(h c).1.trans ?_, (h c).2⟩)
    (Cert.ReferenceIdeal.Whole.run m' ρ' Cert.ReferenceIdeal.Body.out_apply)
  rw [(hagree c).1, (hagree c).2.1, (hagree c).2.2.1, (hagree c).2.2.2.1, (hagree c).2.2.2.2]
  exact (Cert.ResBlock.outK_eq_outR _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
